-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 93
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x40, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x40, .f32⟩
  | .hbm, ⟨84, _⟩ => ⟨S_, .f32⟩
  | .hbm, ⟨85, _⟩ => ⟨S100000x40, .f32⟩
  | .hbm, ⟨86, _⟩ => ⟨S1700000x1, .i32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S1x40, .f32⟩
  | .hbm, ⟨91, _⟩ => ⟨S100000x40, .f32⟩
  | .hbm, ⟨92, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x40, .f32⟩
  | .local _ .vmem, ⟨17, _⟩ => ⟨S5000x1, .f32⟩
  | .local _ .vmem, ⟨18, _⟩ => ⟨S5000x1, .f32⟩
  | .local _ .vmem, ⟨19, _⟩ => ⟨S5000x40, .f32⟩
  | .local _ .vmem, ⟨20, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call2_cst : Ref sig .tc := ⟨.hbm, 71, rfl⟩
abbrev main_call2_v0 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x40, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x40, .f32⟩
  | .hbm, ⟨104, _⟩ => ⟨S1700000x1, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .hbm, ⟨113, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run with its RESULT named. @main is eleven segments: three stretches of host operations,
  a pallas_call, two stretches, a pallas_call, two stretches, a pallas_call, one stretch. The buffer contents at every
  segment boundary are a fold from the launch memory (`W0` … `W11` of the frame module); every weakly fair execution
  terminates with each unscoped buffer at the last boundary's contents `W11`. Read at the result buffer this says
  what the program returns, and at the argument buffers that they are unchanged.
-/
import proofs.«172743_j15590731285080_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the launch over the eleven segments, the last thread state read
    against the final state. -/
theorem run_named : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.KStages.lean ====
/-
  The host stretches of the idealized kernel program, read as functions. Between two pallas_calls the program gathers the
  scaled rows along the edges' sources, sums them into the edges' targets, scales each node's sum by its inverse
  square-root degree, adds the bias and (after the first two layers) applies relu. Each lemma reads one stretch at a
  buffer: the buffer's contents after the stretch as the stretch's operations applied to the contents before it; the
  buffers a stretch does not write keep their contents.
-/
import proofs.«172743_j15590731285080_2_alg».proof.Proof.Gen.KernelIdeal.Frame

set_option maxRecDepth 16384

noncomputable section

namespace Cert.KernelIdeal.KStages

open Cert.KernelIdeal Cert.KernelIdeal.Gen Idealize.ShloMosaic Idealize.ShloMosaic.TcCoe Idealize.SL.Sem Idealize.ShloMosaic.StableHlo

variable {F : FTy → Type} [FloatOps F]

/-- A start-index list with every negative entry moved up by the node count, as a column. -/
def ncol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A segment-id list as a column. -/
def rcol (v : IVec S1700000 32) : IVec S1700000x1 32 := broadcastInDim S1700000x1 ![0] bcast_S1700000_S1700000x1_0 v

/-- One layer after its pallas_call, 128 output features: gather the rows `R` at the sources, sum them into the targets,
    scale row `n` by `dcol n`, add the bias. -/
def layer128 (R : FVec F S100000x128 .f32) (src dst : IVec S1700000 32) (dcol : FVec F S100000x1 .f32) (b : FVec F S128 .f32) :
    FVec F S100000x128 .f32 :=
  addf (mulf (Host.scatterAdd scatter_S100000x128_S1700000x1_S1700000x128_1_0_0_1
        (broadcastInDim S100000x128 ![] bcast_S_S100000x128 (constant S_ .f32 0x00000000#32)) (rcol dst)
        (Host.gather gather_S100000x128_S1700000x1_S1700000x128_1_0_n_n_0_1_1128 R (ncol src)))
      (broadcastInDim S100000x128 ![0, 1] bcast_S100000x1_S100000x128_0_1 dcol))
    (broadcastInDim S100000x128 ![0, 1] bcast_S1x128_S100000x128_0_1 (broadcastInDim S1x128 ![1] bcast_S128_S1x128_1 b))

/-- relu on a 128-feature array. -/
def relu128 (x : FVec F S100000x128 .f32) : FVec F S100000x128 .f32 :=
  maximumf x (broadcastInDim S100000x128 ![] bcast_S_S100000x128 (constant S_ .f32 0x00000000#32))

/-- The last layer after its pallas_call, 40 output features. -/
def layer40 (R : FVec F S100000x40 .f32) (src dst : IVec S1700000 32) (dcol : FVec F S100000x1 .f32) (b : FVec F S40 .f32) :
    FVec F S100000x40 .f32 :=
  addf (mulf (Host.scatterAdd scatter_S100000x40_S1700000x1_S1700000x40_1_0_0_1
        (broadcastInDim S100000x40 ![] bcast_S_S100000x40 (constant S_ .f32 0x00000000#32)) (rcol dst)
        (Host.gather gather_S100000x40_S1700000x1_S1700000x40_1_0_n_n_0_1_140 R (ncol src)))
      (broadcastInDim S100000x40 ![0, 1] bcast_S100000x1_S100000x40_0_1 dcol))
    (broadcastInDim S100000x40 ![0, 1] bcast_S1x40_S100000x40_0_1 (broadcastInDim S1x40 ![1] bcast_S40_S1x40_1 b))

variable (V : Valuation τ sig (Elt F))

set_option maxHeartbeats 4000000 in
/-- The stretch after the first pallas_call writes relu of the layer. -/
theorem stage1 :
    after (hostOps1_1 (F := F)) (after hostOps1 V) (Proc.devRef .tc main_v32)
      = relu128 (layer128 (V (Proc.devRef .tc main_v16)) (V (Proc.devRef .tc main_v3)) (V (Proc.devRef .tc main_v6))
          (V (Proc.devRef .tc main_v15)) (V (Proc.devRef .tc main_arg3))) := by
  dsimp only [hostOps1_1, hostOps1]
  after_results_simp
  rfl

set_option maxHeartbeats 4000000 in
/-- The stretch after the second pallas_call writes relu of the layer. -/
theorem stage2 :
    after (hostOps2_1 (F := F)) (after hostOps2 V) (Proc.devRef .tc main_v49)
      = relu128 (layer128 (V (Proc.devRef .tc main_v33)) (V (Proc.devRef .tc main_v3)) (V (Proc.devRef .tc main_v6))
          (V (Proc.devRef .tc main_v15)) (V (Proc.devRef .tc main_arg5))) := by
  dsimp only [hostOps2_1, hostOps2]
  after_results_simp
  rfl

set_option maxHeartbeats 4000000 in
/-- The stretch after the last pallas_call writes the layer. -/
theorem stage3 :
    after (hostOps3 (F := F)) V (Proc.devRef .tc main_v65)
      = layer40 (V (Proc.devRef .tc main_v50)) (V (Proc.devRef .tc main_v3)) (V (Proc.devRef .tc main_v6))
          (V (Proc.devRef .tc main_v15)) (V (Proc.devRef .tc main_arg7)) := by
  dsimp only [hostOps3]
  after_results_simp
  rfl

/-! ## The first stretches: the edge lists, the degrees, their inverse square roots -/

/-- The source (row 0) or target (row 1) list of the edges followed by one self loop per node. -/
def edgeList (row : Nat) (h : S2x1600000.Slices ![row, 0] S1x1600000) (x1 : IVec S2x1600000 32) : IVec S1700000 32 :=
  concatenate S1700000 0 [⟨S1600000, shapeCast _ (extractStridedSlice S1x1600000 ![row, 0] x1 h) shapeCasts_S1x1600000_S1600000⟩,
    ⟨S100000, iotaInDim S100000 32 0⟩] concatenates_S1600000_S100000_S1700000_d0

/-- The degrees: one per edge and self loop, summed into the targets. -/
def degOf (dst : IVec S1700000 32) : FVec F S100000 .f32 :=
  Host.scatterAdd scatter_S100000_S1700000x1_S1700000_n_0_0_1 (broadcastInDim S100000 ![] bcast_S_S100000 (constant S_ .f32 0x00000000#32))
    (rcol dst) (broadcastInDim S1700000 ![] bcast_S_S1700000 (constant S_ .f32 0x3F800000#32))

/-- The inverse square-root degrees, zero where the degree is not positive. -/
def dinvOf (deg : FVec F S100000 .f32) : FVec F S100000 .f32 :=
  select (cmpf .ogt deg (broadcastInDim S100000 ![] bcast_S_S100000 (constant S_ .f32 0x00000000#32))) (Host.rsqrt deg)
    (broadcastInDim S100000 ![] bcast_S_S100000 (constant S_ .f32 0x00000000#32))

set_option maxHeartbeats 4000000 in
theorem pre_src : after (hostOps0 (F := F)) V (Proc.devRef .tc main_v3)
    = edgeList 0 slices_S2x1600000_S1x1600000_0_0 (V (Proc.devRef .tc main_arg1)) := by
  unfold edgeList
  dsimp only [hostOps0]
  after_results
  rfl

set_option maxHeartbeats 4000000 in
theorem pre_dst : after (hostOps0 (F := F)) V (Proc.devRef .tc main_v6)
    = edgeList 1 slices_S2x1600000_S1x1600000_1_0 (V (Proc.devRef .tc main_arg1)) := by
  unfold edgeList
  dsimp only [hostOps0]
  after_results
  rfl

set_option maxHeartbeats 4000000 in
theorem pre_dinv : after (hostOps0_2 (F := F)) (after hostOps0_1 (after hostOps0 V)) (Proc.devRef .tc main_v14)
    = dinvOf (degOf (after hostOps0 V (Proc.devRef .tc main_v6))) := by
  unfold dinvOf degOf rcol
  dsimp only [hostOps0_2, hostOps0_1, hostOps0]
  after_results_simp
  rfl

set_option maxHeartbeats 4000000 in
theorem pre_dcol : after (hostOps0_2 (F := F)) (after hostOps0_1 (after hostOps0 V)) (Proc.devRef .tc main_v15)
    = broadcastInDim S100000x1 ![0] bcast_S100000_S100000x1_0 (after hostOps0_2 (after hostOps0_1 (after hostOps0 V)) (Proc.devRef .tc main_v14)) := by
  dsimp only [hostOps0_2, hostOps0_1, hostOps0]
  after_results_simp

/-! ## What a stretch does not write -/

/-- The buffers `hostOps0` writes. -/
def w_hostOps0 : List (Ref sig .tc) := [main_v0, main_v1, main_v2, main_v3, main_v4, main_v5, main_v6, main_cst, main_v7, main_cst_0, main_v8, main_v9, main_v10, main_cst_1, main_v11, main_v12, main_v13, main_cst_2]
set_option maxHeartbeats 4000000 in
/-- A buffer `hostOps0` does not write keeps its contents. -/
theorem kept_hostOps0 {r : Ref sig .tc} (hr : r ∉ w_hostOps0) : after (hostOps0 (F := F)) V (Proc.devRef .tc r) = V (Proc.devRef .tc r) :=
  after_of_writes_sub _ V (by
    simp only [hostOps0, w_hostOps0, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `hostOps0_1` writes. -/
def w_hostOps0_1 : List (Ref sig .tc) := [main_call0_v0, main_call0_v1, main_v14]
set_option maxHeartbeats 4000000 in
/-- A buffer `hostOps0_1` does not write keeps its contents. -/
theorem kept_hostOps0_1 {r : Ref sig .tc} (hr : r ∉ w_hostOps0_1) : after (hostOps0_1 (F := F)) V (Proc.devRef .tc r) = V (Proc.devRef .tc r) :=
  after_of_writes_sub _ V (by
    simp only [hostOps0_1, w_hostOps0_1, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `hostOps0_2` writes. -/
def w_hostOps0_2 : List (Ref sig .tc) := [main_v15]
set_option maxHeartbeats 4000000 in
/-- A buffer `hostOps0_2` does not write keeps its contents. -/
theorem kept_hostOps0_2 {r : Ref sig .tc} (hr : r ∉ w_hostOps0_2) : after (hostOps0_2 (F := F)) V (Proc.devRef .tc r) = V (Proc.devRef .tc r) :=
  after_of_writes_sub _ V (by
    simp only [hostOps0_2, w_hostOps0_2, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `hostOps1` writes. -/
def w_hostOps1 : List (Ref sig .tc) := [main_c, main_v17, main_v18, main_c_3, main_v19, main_v20, main_v21, main_v22, main_v23, main_cst_4, main_v24, main_v25, main_v26, main_v27, main_v28, main_v29, main_v30, main_v31]
set_option maxHeartbeats 4000000 in
/-- A buffer `hostOps1` does not write keeps its contents. -/
theorem kept_hostOps1 {r : Ref sig .tc} (hr : r ∉ w_hostOps1) : after (hostOps1 (F := F)) V (Proc.devRef .tc r) = V (Proc.devRef .tc r) :=
  after_of_writes_sub _ V (by
    simp only [hostOps1, w_hostOps1, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `hostOps1_1` writes. -/
def w_hostOps1_1 : List (Ref sig .tc) := [main_call1_cst, main_call1_v0, main_v32]
set_option maxHeartbeats 4000000 in
/-- A buffer `hostOps1_1` does not write keeps its contents. -/
theorem kept_hostOps1_1 {r : Ref sig .tc} (hr : r ∉ w_hostOps1_1) : after (hostOps1_1 (F := F)) V (Proc.devRef .tc r) = V (Proc.devRef .tc r) :=
  after_of_writes_sub _ V (by
    simp only [hostOps1_1, w_hostOps1_1, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `hostOps2` writes. -/
def w_hostOps2 : List (Ref sig .tc) := [main_c_5, main_v34, main_v35, main_c_6, main_v36, main_v37, main_v38, main_v39, main_v40, main_cst_7, main_v41, main_v42, main_v43, main_v44, main_v45, main_v46, main_v47, main_v48]
set_option maxHeartbeats 4000000 in
/-- A buffer `hostOps2` does not write keeps its contents. -/
theorem kept_hostOps2 {r : Ref sig .tc} (hr : r ∉ w_hostOps2) : after (hostOps2 (F := F)) V (Proc.devRef .tc r) = V (Proc.devRef .tc r) :=
  after_of_writes_sub _ V (by
    simp only [hostOps2, w_hostOps2, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `hostOps2_1` writes. -/
def w_hostOps2_1 : List (Ref sig .tc) := [main_call2_cst, main_call2_v0, main_v49]
set_option maxHeartbeats 4000000 in
/-- A buffer `hostOps2_1` does not write keeps its contents. -/
theorem kept_hostOps2_1 {r : Ref sig .tc} (hr : r ∉ w_hostOps2_1) : after (hostOps2_1 (F := F)) V (Proc.devRef .tc r) = V (Proc.devRef .tc r) :=
  after_of_writes_sub _ V (by
    simp only [hostOps2_1, w_hostOps2_1, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

end Cert.KernelIdeal.KStages

end
-- ==== Proof.RegionValue0.lean ====
import proofs.«172743_j15590731285080_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe
open Idealize.ShloMosaic.ValueIdx Idealize.SL.Sem
open Idealize.ShloMosaic.Pipeline (Dat)

/-- The kernel's matrix product into the zero splat, read at row `a` and column `b`: the sum over the contracted
    coordinate of the products of the entries. -/
theorem matmul0_apply (A : FVec Ideal S5000x128 .bf16) (B : FVec Ideal S128x128 .bf16) (a : Fin 5000) (b : Fin 128) :
    matmul dot_S5000x128_S128x128_S5000x128_1_0_0_1_n_n none A B (constant (F := Ideal) S5000x128 .f32 0x00000000#32) (ix2 a b)
      = ∑ k : Fin 128, A (ix2 a k) * B (ix2 k b) := by
  show FloatOps.matmul _ none A B _ (ix2 a b) = _
  rw [Ideal.matmul_constant_zero_apply,
    ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 a b) ((contrEquiv1 _ 128 rfl rfl).symm k) = ix2 a k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 a b) ((contrEquiv1 _ 128 rfl rfl).symm k) = ix2 k b := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The scale column broadcast along the rows' entries, read at row `a` and column `b`: the column's entry of row `a`. -/
theorem bcast0_apply (x : FVec Ideal S5000x1 .f32) (a : Fin 5000) (b : Fin 128) :
    broadcastTo S5000x128 x broadcasts_S5000x1_S5000x128 (ix2 a b) = x (ix2 a 0) := by
  refine broadcastTo_apply x _ (ix2 a b) (ix2 a 0) fun ax => ?_
  match ax with
  | ⟨0, _⟩ => rfl
  | ⟨1, _⟩ => rfl

/-- The body's stored value at row `a` and column `b` of a block: the row of the first block times the column of the
    weight, summed over the contracted coordinate, scaled by the row's entry of the scale column. -/
theorem pay0_apply (x0 : Vec Ideal S5000x128 .f32) (x1 : Vec Ideal S128x128 .f32) (x2 : Vec Ideal S5000x1 .f32)
    (a : Fin 5000) (b : Fin 128) :
    k0_pay1 x0 x1 x2 (ix2 a b) = (∑ k : Fin 128, x0 (ix2 a k) * x1 (ix2 k b)) * x2 (ix2 a 0) := by
  unfold k0_pay1
  rw [mulf_apply, matmul0_apply, bcast0_apply, shapeCast_self]
  rfl

/-- Region 0's value as one function of the three arrays the region reads: at row `p` and column `q`, the row of the
    first array times the column of the weight, summed over the contracted coordinate, scaled by the row's entry of the
    scale column. -/
abbrev G0 (X0 : S100000x128.Idx → EReal) (X1 : S128x128.Idx → EReal) (X2 : S100000x1.Idx → EReal) :
    S100000x128.Idx → EReal :=
  fun i => (∑ k : Fin 128, X0 (ix2 (i 0) k) * X1 (ix2 k (i 1))) * X2 (ix2 (i 0) 0)

/-- The same at any index of the block, by its coordinates. -/
theorem pay0_apply' (x0 : Vec Ideal S5000x128 .f32) (x1 : Vec Ideal S128x128 .f32) (x2 : Vec Ideal S5000x1 .f32)
    (j : S5000x128.Idx) :
    k0_pay1 x0 x1 x2 j = (∑ k : Fin 128, x0 (ix2 (j 0) k) * x1 (ix2 k (j 1))) * x2 (ix2 (j 0) 0) := by
  obtain ⟨a, b, rfl⟩ : ∃ (a : Fin 5000) (b : Fin 128), j = ix2 a b := ⟨j 0, j 1, eq_ix2 j⟩
  exact pay0_apply x0 x1 x2 a b

/-- When the three blocks are the arrays read where the output's block sits — the first block's row `j 0` is the
    array's row `i 0`, the weight's block is the weight, the scale block's row `j 0` is the column's row `i 0` — the body's
    stored value at `j` is the region's function at `i`. -/
theorem point0 (X0 : S100000x128.Idx → EReal) (X1 : S128x128.Idx → EReal) (X2 : S100000x1.Idx → EReal)
    (b0 : Vec Ideal S5000x128 .f32) (b1 : Vec Ideal S128x128 .f32) (b2 : Vec Ideal S5000x1 .f32)
    (j : S5000x128.Idx) (i : S100000x128.Idx)
    (h0 : ∀ k : Fin 128, b0 (ix2 (j 0) k) = X0 (ix2 (i 0) k))
    (h1 : ∀ k : Fin 128, b1 (ix2 k (j 1)) = X1 (ix2 k (i 1)))
    (h2 : b2 (ix2 (j 0) 0) = X2 (ix2 (i 0) 0)) :
    k0_pay1 b0 b1 b2 j = G0 X0 X1 X2 i := by
  rw [pay0_apply']
  show _ = (∑ k : Fin 128, X0 (ix2 (i 0) k) * X1 (ix2 k (i 1))) * X2 (ix2 (i 0) 0)
  rw [h2]
  congr 1
  exact Finset.sum_congr rfl fun k _ => by rw [h0 k, h1 k]

theorem zero_offsets0 : (![0, 0] : Fin 2 → Nat) = fun _ => 0 := funext fun a => by fin_cases a <;> rfl

/-- The printed index maps, decided over the grid: the row blocks of the first array and of the scale column move with
    the output's row block, every column block index is zero, and the weight's one block stays. -/
theorem index_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 19 :=
  (by decide +kernel : ∀ t : Fin grid0.N, _)

/-- Every row block of the output is some grid point's. -/
theorem index_onto0 : ∀ q0 : Fin 20, ∃ t : Fin cfg0.N, win0_3.index t = ![q0.val, 0] :=
  (by decide +kernel : ∀ q0 : Fin 20, ∃ t : Fin grid0.N, win0_3.index t = ![q0.val, 0])

variable (V : (c : Dev nD) → (b : Ref sig .tc) → Buf (Elt Ideal) ((c : Thread nD τ).loc b))

/-- Window 0's block at point `t` is rows of the first array: block coordinate `x` sits at the block index times the
    block's extent plus `x`, axis by axis. -/
theorem blk0_0_apply (c : Dev nD) (t : Fin cfg0.N) (x : S5000x128.Idx) (k : S100000x128.Idx)
    (hk0 : (k 0).val = win0_0.index t (0 : Fin 2) * 5000 + (x 0).val)
    (hk1 : (k 1).val = win0_0.index t (1 : Fin 2) * 128 + (x 1).val) :
    (iblk0 (F := Ideal) V c 0 t : Vec Ideal S5000x128 .f32) x = (V c main_arg0 : S100000x128.Idx → EReal) k := by
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 5000 + 1 * (x 0).val = (k 0).val; rw [hk0]; omega
  | ⟨1, _⟩ => show win0_0.index t (1 : Fin 2) * 128 + 1 * (x 1).val = (k 1).val; rw [hk1]; omega

/-- Window 1's block at point `t` is the weight. -/
theorem blk0_1_apply (c : Dev nD) (t : Fin cfg0.N) (x : S128x128.Idx) (k : S128x128.Idx)
    (hk0 : (k 0).val = win0_1.index t (0 : Fin 2) * 128 + (x 0).val)
    (hk1 : (k 1).val = win0_1.index t (1 : Fin 2) * 128 + (x 1).val) :
    (iblk0 (F := Ideal) V c 1 t : Vec Ideal S128x128 .f32) x = (V c main_arg2 : S128x128.Idx → EReal) k := by
  unfold iblk0
  rw [View.read_apply]
  show (V c main_arg2 : S128x128.Idx → EReal) _ = (V c main_arg2 : S128x128.Idx → EReal) _
  congr 1
  funext a
  apply Fin.ext
  match a with
  | ⟨0, _⟩ => show win0_1.index t (0 : Fin 2) * 128 + 1 * (x 0).val = (k 0).val; rw [hk0]; omega
  | ⟨1, _⟩ => show win0_1.index t (1 : Fin 2) * 128 + 1 * (x 1).val = (k 1).val; rw [hk1]; omega

/-- Window 2's block at point `t` is rows of the scale column. -/
theorem blk0_2_apply (c : Dev nD) (t : Fin cfg0.N) (x : S5000x1.Idx) (k : S100000x1.Idx)
    (hk0 : (k 0).val = win0_2.index t (0 : Fin 2) * 5000 + (x 0).val)
    (hk1 : (k 1).val = win0_2.index t (1 : Fin 2) * 1 + (x 1).val) :
    (iblk0 (F := Ideal) V c 2 t : Vec Ideal S5000x1 .f32) x = (V c main_v15 : S100000x1.Idx → EReal) k := by
  unfold iblk0
  rw [View.read_apply]
  show (V c main_v15 : S100000x1.Idx → EReal) _ = (V c main_v15 : S100000x1.Idx → EReal) _
  congr 1
  funext a
  apply Fin.ext
  match a with
  | ⟨0, _⟩ => show win0_2.index t (0 : Fin 2) * 5000 + 1 * (x 0).val = (k 0).val; rw [hk0]; omega
  | ⟨1, _⟩ => show win0_2.index t (1 : Fin 2) * 1 + 1 * (x 1).val = (k 1).val; rw [hk1]; omega

/-- What point `t` writes back to the output array is block `t` of the region's function of the three arrays as the
    region finds them. -/
theorem flushed0_eq (c : Dev nD) (t : Fin cfg0.N) :
    (dat0 (F := Ideal) V c).flushed 3 t
      = ((cfg0.win 3).blk t).view.read (Elt Ideal) (G0 (V c main_arg0) (V c main_arg2) (V c main_v15)) := by
  show (cfg0.win 3).cut (grid0.coords t) ((dat0 (F := Ideal) V c).after 3 t) = _
  rw [after0_3]
  unfold out0_3
  rw [View.canon_unit_zero zero_offsets0]
  simp only [View.ld_unit_zero (S := S5000x128) zero_offsets0, View.ld_unit_zero (S := S128x128) zero_offsets0, View.ld_unit_zero (S := S5000x1) zero_offsets0]
  obtain ⟨e0, e1, e2, e3, e4, e5, e6, e7⟩ := index_facts0 t
  funext j
  show k0_pay1 (iblk0 V c 0 t) (iblk0 V c 1 t) (iblk0 V c 2 t) j
    = G0 (V c main_arg0) (V c main_arg2) (V c main_v15) (((cfg0.win 3).blk t).view.emb j)
  have E0 : ((((cfg0.win 3).blk t).view.emb j) 0).val = win0_3.index t (0 : Fin 2) * 5000 + 1 * (j 0).val := rfl
  have E1 : ((((cfg0.win 3).blk t).view.emb j) 1).val = win0_3.index t (1 : Fin 2) * 128 + 1 * (j 1).val := rfl
  refine point0 _ _ _ _ _ _ j _ (fun k => blk0_0_apply V c t _ _ ?_ ?_) (fun k => blk0_1_apply V c t _ _ ?_ ?_)
    (blk0_2_apply V c t _ _ ?_ ?_)
  · show ((((cfg0.win 3).blk t).view.emb j) 0).val = win0_0.index t (0 : Fin 2) * 5000 + (j 0).val
    rw [E0, e0]; omega
  · show k.val = win0_0.index t (1 : Fin 2) * 128 + k.val
    rw [e1]; omega
  · show k.val = win0_1.index t (0 : Fin 2) * 128 + k.val
    rw [e2]; omega
  · show ((((cfg0.win 3).blk t).view.emb j) 1).val = win0_1.index t (1 : Fin 2) * 128 + (j 1).val
    rw [E1, e3, e6]; omega
  · show ((((cfg0.win 3).blk t).view.emb j) 0).val = win0_2.index t (0 : Fin 2) * 5000 + (j 0).val
    rw [E0, e4]; omega
  · show (0 : Fin 1).val = win0_2.index t (1 : Fin 2) * 1 + (0 : Fin 1).val
    rw [e5]; omega

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The output's blocks cover its array: row `r` is in the block of the point whose row block index is `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after region 0, whole: the region's function of the three arrays as the region finds them. -/
theorem final0 (c : Dev nD) :
    (dat0 (F := Ideal) V c).arrAt 3 cfg0.N = G0 (V c main_arg0) (V c main_arg2) (V c main_v15) :=
  (dat0 (F := Ideal) V c).arrAt_eq_of_cover 3 (G0 (V c main_arg0) (V c main_arg2) (V c main_v15))
    (fun t _ => flushed0_eq V c t) cover0

/-- The region's function at row `p` and column `q`, spelt out. -/
theorem G0_apply (X0 : S100000x128.Idx → EReal) (X1 : S128x128.Idx → EReal) (X2 : S100000x1.Idx → EReal)
    (p : Fin 100000) (q : Fin 128) :
    G0 X0 X1 X2 (ix2 p q) = (∑ k : Fin 128, X0 (ix2 p k) * X1 (ix2 k q)) * X2 (ix2 p 0) := rfl

/-- The output array after region 0 at row `p` and column `q`, in the region's function. -/
theorem arr0 (c : Dev nD) (p : Fin 100000) (q : Fin 128) :
    (dat0 (F := Ideal) V c).arrAt 3 cfg0.N (ix2 p q) = G0 (V c main_arg0) (V c main_arg2) (V c main_v15) (ix2 p q) :=
  congrFun (final0 V c) (ix2 p q)

/-- The output array after region 0 at row `p` and column `q`, with the three arrays the region reads named: the row of
    the first times the column of the weight, summed over the contracted coordinate, times the row's scale. -/
theorem arr0_of (c : Dev nD) (p : Fin 100000) (q : Fin 128)
    (X0 : S100000x128.Idx → EReal) (X1 : S128x128.Idx → EReal) (X2 : S100000x1.Idx → EReal)
    (h0 : V c main_arg0 = X0) (h1 : V c main_arg2 = X1) (h2 : V c main_v15 = X2) :
    (dat0 (F := Ideal) V c).arrAt 3 cfg0.N (ix2 p q)
      = (∑ k : Fin 128, X0 (ix2 p k) * X1 (ix2 k q)) * X2 (ix2 p 0) := by
  subst h0 h1 h2
  exact congrFun (final0 V c) (ix2 p q)

end Cert.KernelIdeal.RegionValue

end
-- ==== Proof.RegionValue1.lean ====
import proofs.«172743_j15590731285080_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe
open Idealize.ShloMosaic.ValueIdx Idealize.SL.Sem
open Idealize.ShloMosaic.Pipeline (Dat)

/-- The kernel's matrix product into the zero splat, read at row `a` and column `b`: the sum over the contracted
    coordinate of the products of the entries. -/
theorem matmul1_apply (A : FVec Ideal S5000x128 .bf16) (B : FVec Ideal S128x128 .bf16) (a : Fin 5000) (b : Fin 128) :
    matmul dot_S5000x128_S128x128_S5000x128_1_0_0_1_n_n none A B (constant (F := Ideal) S5000x128 .f32 0x00000000#32) (ix2 a b)
      = ∑ k : Fin 128, A (ix2 a k) * B (ix2 k b) := by
  show FloatOps.matmul _ none A B _ (ix2 a b) = _
  rw [Ideal.matmul_constant_zero_apply,
    ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 a b) ((contrEquiv1 _ 128 rfl rfl).symm k) = ix2 a k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 a b) ((contrEquiv1 _ 128 rfl rfl).symm k) = ix2 k b := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The scale column broadcast along the rows' entries, read at row `a` and column `b`: the column's entry of row `a`. -/
theorem bcast1_apply (x : FVec Ideal S5000x1 .f32) (a : Fin 5000) (b : Fin 128) :
    broadcastTo S5000x128 x broadcasts_S5000x1_S5000x128 (ix2 a b) = x (ix2 a 0) := by
  refine broadcastTo_apply x _ (ix2 a b) (ix2 a 0) fun ax => ?_
  match ax with
  | ⟨0, _⟩ => rfl
  | ⟨1, _⟩ => rfl

/-- The body's stored value at row `a` and column `b` of a block: the row of the first block times the column of the
    weight, summed over the contracted coordinate, scaled by the row's entry of the scale column. -/
theorem pay1_apply (x0 : Vec Ideal S5000x128 .f32) (x1 : Vec Ideal S128x128 .f32) (x2 : Vec Ideal S5000x1 .f32)
    (a : Fin 5000) (b : Fin 128) :
    k1_pay1 x0 x1 x2 (ix2 a b) = (∑ k : Fin 128, x0 (ix2 a k) * x1 (ix2 k b)) * x2 (ix2 a 0) := by
  unfold k1_pay1
  rw [mulf_apply, matmul1_apply, bcast1_apply, shapeCast_self, shapeCast_self]
  rfl

/-- Region 1's value as one function of the three arrays the region reads: at row `p` and column `q`, the row of the
    first array times the column of the weight, summed over the contracted coordinate, scaled by the row's entry of the
    scale column. -/
abbrev G1 (X0 : S100000x128.Idx → EReal) (X1 : S128x128.Idx → EReal) (X2 : S100000x1.Idx → EReal) :
    S100000x128.Idx → EReal :=
  fun i => (∑ k : Fin 128, X0 (ix2 (i 0) k) * X1 (ix2 k (i 1))) * X2 (ix2 (i 0) 0)

/-- The same at any index of the block, by its coordinates. -/
theorem pay1_apply' (x0 : Vec Ideal S5000x128 .f32) (x1 : Vec Ideal S128x128 .f32) (x2 : Vec Ideal S5000x1 .f32)
    (j : S5000x128.Idx) :
    k1_pay1 x0 x1 x2 j = (∑ k : Fin 128, x0 (ix2 (j 0) k) * x1 (ix2 k (j 1))) * x2 (ix2 (j 0) 0) := by
  obtain ⟨a, b, rfl⟩ : ∃ (a : Fin 5000) (b : Fin 128), j = ix2 a b := ⟨j 0, j 1, eq_ix2 j⟩
  exact pay1_apply x0 x1 x2 a b

/-- When the three blocks are the arrays read where the output's block sits — the first block's row `j 0` is the
    array's row `i 0`, the weight's block is the weight, the scale block's row `j 0` is the column's row `i 0` — the body's
    stored value at `j` is the region's function at `i`. -/
theorem point1 (X0 : S100000x128.Idx → EReal) (X1 : S128x128.Idx → EReal) (X2 : S100000x1.Idx → EReal)
    (b0 : Vec Ideal S5000x128 .f32) (b1 : Vec Ideal S128x128 .f32) (b2 : Vec Ideal S5000x1 .f32)
    (j : S5000x128.Idx) (i : S100000x128.Idx)
    (h0 : ∀ k : Fin 128, b0 (ix2 (j 0) k) = X0 (ix2 (i 0) k))
    (h1 : ∀ k : Fin 128, b1 (ix2 k (j 1)) = X1 (ix2 k (i 1)))
    (h2 : b2 (ix2 (j 0) 0) = X2 (ix2 (i 0) 0)) :
    k1_pay1 b0 b1 b2 j = G1 X0 X1 X2 i := by
  rw [pay1_apply']
  show _ = (∑ k : Fin 128, X0 (ix2 (i 0) k) * X1 (ix2 k (i 1))) * X2 (ix2 (i 0) 0)
  rw [h2]
  congr 1
  exact Finset.sum_congr rfl fun k _ => by rw [h0 k, h1 k]

theorem zero_offsets1 : (![0, 0] : Fin 2 → Nat) = fun _ => 0 := funext fun a => by fin_cases a <;> rfl

/-- The printed index maps, decided over the grid: the row blocks of the first array and of the scale column move with
    the output's row block, every column block index is zero, and the weight's one block stays. -/
theorem index_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (1 : Fin 2) = 0
    ∧ win1_3.index t (0 : Fin 2) ≤ 19 :=
  (by decide +kernel : ∀ t : Fin grid1.N, _)

/-- Every row block of the output is some grid point's. -/
theorem index_onto1 : ∀ q0 : Fin 20, ∃ t : Fin cfg1.N, win1_3.index t = ![q0.val, 0] :=
  (by decide +kernel : ∀ q0 : Fin 20, ∃ t : Fin grid1.N, win1_3.index t = ![q0.val, 0])

variable (V : (c : Dev nD) → (b : Ref sig .tc) → Buf (Elt Ideal) ((c : Thread nD τ).loc b))

/-- Window 0's block at point `t` is rows of the first array: block coordinate `x` sits at the block index times the
    block's extent plus `x`, axis by axis. -/
theorem blk1_0_apply (c : Dev nD) (t : Fin cfg1.N) (x : S5000x128.Idx) (k : S100000x128.Idx)
    (hk0 : (k 0).val = win1_0.index t (0 : Fin 2) * 5000 + (x 0).val)
    (hk1 : (k 1).val = win1_0.index t (1 : Fin 2) * 128 + (x 1).val) :
    (iblk1 (F := Ideal) V c 0 t : Vec Ideal S5000x128 .f32) x = (V c main_v32 : S100000x128.Idx → EReal) k := by
  unfold iblk1
  rw [View.read_apply]
  show (V c main_v32 : S100000x128.Idx → EReal) _ = (V c main_v32 : S100000x128.Idx → EReal) _
  congr 1
  funext a
  apply Fin.ext
  match a with
  | ⟨0, _⟩ => show win1_0.index t (0 : Fin 2) * 5000 + 1 * (x 0).val = (k 0).val; rw [hk0]; omega
  | ⟨1, _⟩ => show win1_0.index t (1 : Fin 2) * 128 + 1 * (x 1).val = (k 1).val; rw [hk1]; omega

/-- Window 1's block at point `t` is the weight. -/
theorem blk1_1_apply (c : Dev nD) (t : Fin cfg1.N) (x : S128x128.Idx) (k : S128x128.Idx)
    (hk0 : (k 0).val = win1_1.index t (0 : Fin 2) * 128 + (x 0).val)
    (hk1 : (k 1).val = win1_1.index t (1 : Fin 2) * 128 + (x 1).val) :
    (iblk1 (F := Ideal) V c 1 t : Vec Ideal S128x128 .f32) x = (V c main_arg4 : S128x128.Idx → EReal) k := by
  unfold iblk1
  rw [View.read_apply]
  show (V c main_arg4 : S128x128.Idx → EReal) _ = (V c main_arg4 : S128x128.Idx → EReal) _
  congr 1
  funext a
  apply Fin.ext
  match a with
  | ⟨0, _⟩ => show win1_1.index t (0 : Fin 2) * 128 + 1 * (x 0).val = (k 0).val; rw [hk0]; omega
  | ⟨1, _⟩ => show win1_1.index t (1 : Fin 2) * 128 + 1 * (x 1).val = (k 1).val; rw [hk1]; omega

/-- Window 2's block at point `t` is rows of the scale column. -/
theorem blk1_2_apply (c : Dev nD) (t : Fin cfg1.N) (x : S5000x1.Idx) (k : S100000x1.Idx)
    (hk0 : (k 0).val = win1_2.index t (0 : Fin 2) * 5000 + (x 0).val)
    (hk1 : (k 1).val = win1_2.index t (1 : Fin 2) * 1 + (x 1).val) :
    (iblk1 (F := Ideal) V c 2 t : Vec Ideal S5000x1 .f32) x = (V c main_v15 : S100000x1.Idx → EReal) k := by
  unfold iblk1
  rw [View.read_apply]
  show (V c main_v15 : S100000x1.Idx → EReal) _ = (V c main_v15 : S100000x1.Idx → EReal) _
  congr 1
  funext a
  apply Fin.ext
  match a with
  | ⟨0, _⟩ => show win1_2.index t (0 : Fin 2) * 5000 + 1 * (x 0).val = (k 0).val; rw [hk0]; omega
  | ⟨1, _⟩ => show win1_2.index t (1 : Fin 2) * 1 + 1 * (x 1).val = (k 1).val; rw [hk1]; omega

/-- What point `t` writes back to the output array is block `t` of the region's function of the three arrays as the
    region finds them. -/
theorem flushed1_eq (c : Dev nD) (t : Fin cfg1.N) :
    (dat1 (F := Ideal) V c).flushed 3 t
      = ((cfg1.win 3).blk t).view.read (Elt Ideal) (G1 (V c main_v32) (V c main_arg4) (V c main_v15)) := by
  show (cfg1.win 3).cut (grid1.coords t) ((dat1 (F := Ideal) V c).after 3 t) = _
  rw [after1_3]
  unfold out1_3
  rw [View.canon_unit_zero zero_offsets1]
  simp only [View.ld_unit_zero (S := S5000x128) zero_offsets1, View.ld_unit_zero (S := S128x128) zero_offsets1, View.ld_unit_zero (S := S5000x1) zero_offsets1]
  obtain ⟨e0, e1, e2, e3, e4, e5, e6, e7⟩ := index_facts1 t
  funext j
  show k1_pay1 (iblk1 V c 0 t) (iblk1 V c 1 t) (iblk1 V c 2 t) j
    = G1 (V c main_v32) (V c main_arg4) (V c main_v15) (((cfg1.win 3).blk t).view.emb j)
  have E0 : ((((cfg1.win 3).blk t).view.emb j) 0).val = win1_3.index t (0 : Fin 2) * 5000 + 1 * (j 0).val := rfl
  have E1 : ((((cfg1.win 3).blk t).view.emb j) 1).val = win1_3.index t (1 : Fin 2) * 128 + 1 * (j 1).val := rfl
  refine point1 _ _ _ _ _ _ j _ (fun k => blk1_0_apply V c t _ _ ?_ ?_) (fun k => blk1_1_apply V c t _ _ ?_ ?_)
    (blk1_2_apply V c t _ _ ?_ ?_)
  · show ((((cfg1.win 3).blk t).view.emb j) 0).val = win1_0.index t (0 : Fin 2) * 5000 + (j 0).val
    rw [E0, e0]; omega
  · show k.val = win1_0.index t (1 : Fin 2) * 128 + k.val
    rw [e1]; omega
  · show k.val = win1_1.index t (0 : Fin 2) * 128 + k.val
    rw [e2]; omega
  · show ((((cfg1.win 3).blk t).view.emb j) 1).val = win1_1.index t (1 : Fin 2) * 128 + (j 1).val
    rw [E1, e3, e6]; omega
  · show ((((cfg1.win 3).blk t).view.emb j) 0).val = win1_2.index t (0 : Fin 2) * 5000 + (j 0).val
    rw [E0, e4]; omega
  · show (0 : Fin 1).val = win1_2.index t (1 : Fin 2) * 1 + (0 : Fin 1).val
    rw [e5]; omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v33).slice (win1_3.rect t)).set ↔ _
  rw [View.set_slice_whole, Rect.mem_set_unit]
  exact Iff.rfl

/-- The output's blocks cover its array: row `r` is in the block of the point whose row block index is `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after region 1, whole: the region's function of the three arrays as the region finds them. -/
theorem final1 (c : Dev nD) :
    (dat1 (F := Ideal) V c).arrAt 3 cfg1.N = G1 (V c main_v32) (V c main_arg4) (V c main_v15) :=
  (dat1 (F := Ideal) V c).arrAt_eq_of_cover 3 (G1 (V c main_v32) (V c main_arg4) (V c main_v15))
    (fun t _ => flushed1_eq V c t) cover1

/-- The region's function at row `p` and column `q`, spelt out. -/
theorem G1_apply (X0 : S100000x128.Idx → EReal) (X1 : S128x128.Idx → EReal) (X2 : S100000x1.Idx → EReal)
    (p : Fin 100000) (q : Fin 128) :
    G1 X0 X1 X2 (ix2 p q) = (∑ k : Fin 128, X0 (ix2 p k) * X1 (ix2 k q)) * X2 (ix2 p 0) := rfl

/-- The output array after region 1 at row `p` and column `q`, in the region's function. -/
theorem arr1 (c : Dev nD) (p : Fin 100000) (q : Fin 128) :
    (dat1 (F := Ideal) V c).arrAt 3 cfg1.N (ix2 p q) = G1 (V c main_v32) (V c main_arg4) (V c main_v15) (ix2 p q) :=
  congrFun (final1 V c) (ix2 p q)

/-- The output array after region 1 at row `p` and column `q`, with the three arrays the region reads named: the row of
    the first times the column of the weight, summed over the contracted coordinate, times the row's scale. -/
theorem arr1_of (c : Dev nD) (p : Fin 100000) (q : Fin 128)
    (X0 : S100000x128.Idx → EReal) (X1 : S128x128.Idx → EReal) (X2 : S100000x1.Idx → EReal)
    (h0 : V c main_v32 = X0) (h1 : V c main_arg4 = X1) (h2 : V c main_v15 = X2) :
    (dat1 (F := Ideal) V c).arrAt 3 cfg1.N (ix2 p q)
      = (∑ k : Fin 128, X0 (ix2 p k) * X1 (ix2 k q)) * X2 (ix2 p 0) := by
  subst h0 h1 h2
  exact congrFun (final1 V c) (ix2 p q)

end Cert.KernelIdeal.RegionValue

end
-- ==== Proof.RegionValue2.lean ====
import proofs.«172743_j15590731285080_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe
open Idealize.ShloMosaic.ValueIdx Idealize.SL.Sem
open Idealize.ShloMosaic.Pipeline (Dat)

/-- The kernel's matrix product into the zero splat, read at row `a` and column `b`: the sum over the contracted
    coordinate of the products of the entries. -/
theorem matmul2_apply (A : FVec Ideal S5000x128 .bf16) (B : FVec Ideal S128x40 .bf16) (a : Fin 5000) (b : Fin 40) :
    matmul dot_S5000x128_S128x40_S5000x40_1_0_0_1_n_n none A B (constant (F := Ideal) S5000x40 .f32 0x00000000#32) (ix2 a b)
      = ∑ k : Fin 128, A (ix2 a k) * B (ix2 k b) := by
  show FloatOps.matmul _ none A B _ (ix2 a b) = _
  rw [Ideal.matmul_constant_zero_apply,
    ← Equiv.sum_comp (contrEquiv1 dot_S5000x128_S128x40_S5000x40_1_0_0_1_n_n 128 rfl rfl).symm]
  refine Finset.sum_congr rfl fun k _ => ?_
  have c2 := contrEquiv1_symm_val dot_S5000x128_S128x40_S5000x40_1_0_0_1_n_n 128 rfl rfl k
  have l2 : dot_S5000x128_S128x40_S5000x40_1_0_0_1_n_n.lhsIdx (ix2 a b) ((contrEquiv1 _ 128 rfl rfl).symm k) = ix2 a k := by
    funext ax; apply Fin.ext
    match ax with
    | ⟨0, _⟩ => simp [DotDims.lhsIdx, dot_S5000x128_S128x40_S5000x40_1_0_0_1_n_n]; rfl
    | ⟨1, _⟩ => simp [DotDims.lhsIdx, dot_S5000x128_S128x40_S5000x40_1_0_0_1_n_n]; exact c2
  have r2 : dot_S5000x128_S128x40_S5000x40_1_0_0_1_n_n.rhsIdx (ix2 a b) ((contrEquiv1 _ 128 rfl rfl).symm k) = ix2 k b := by
    funext ax; apply Fin.ext
    match ax with
    | ⟨0, _⟩ => simp [DotDims.rhsIdx, dot_S5000x128_S128x40_S5000x40_1_0_0_1_n_n]; exact c2
    | ⟨1, _⟩ => simp [DotDims.rhsIdx, dot_S5000x128_S128x40_S5000x40_1_0_0_1_n_n]; rfl
  rw [l2, r2]

/-- The scale column broadcast along the rows' entries, read at row `a` and column `b`: the column's entry of row `a`. -/
theorem bcast2_apply (x : FVec Ideal S5000x1 .f32) (a : Fin 5000) (b : Fin 40) :
    broadcastTo S5000x40 x broadcasts_S5000x1_S5000x40 (ix2 a b) = x (ix2 a 0) := by
  refine broadcastTo_apply x _ (ix2 a b) (ix2 a 0) fun ax => ?_
  match ax with
  | ⟨0, _⟩ => rfl
  | ⟨1, _⟩ => rfl

/-- The body's stored value at row `a` and column `b` of a block: the row of the first block times the column of the
    weight, summed over the contracted coordinate, scaled by the row's entry of the scale column. -/
theorem pay2_apply (x0 : Vec Ideal S5000x128 .f32) (x1 : Vec Ideal S128x40 .f32) (x2 : Vec Ideal S5000x1 .f32)
    (a : Fin 5000) (b : Fin 40) :
    k2_pay1 x0 x1 x2 (ix2 a b) = (∑ k : Fin 128, x0 (ix2 a k) * x1 (ix2 k b)) * x2 (ix2 a 0) := by
  unfold k2_pay1
  rw [mulf_apply, matmul2_apply, bcast2_apply, shapeCast_self, shapeCast_self]
  rfl

/-- Region 2's value as one function of the three arrays the region reads: at row `p` and column `q`, the row of the
    first array times the column of the weight, summed over the contracted coordinate, scaled by the row's entry of the
    scale column. -/
abbrev G2 (X0 : S100000x128.Idx → EReal) (X1 : S128x40.Idx → EReal) (X2 : S100000x1.Idx → EReal) :
    S100000x40.Idx → EReal :=
  fun i => (∑ k : Fin 128, X0 (ix2 (i 0) k) * X1 (ix2 k (i 1))) * X2 (ix2 (i 0) 0)

/-- The same at any index of the block, by its coordinates. -/
theorem pay2_apply' (x0 : Vec Ideal S5000x128 .f32) (x1 : Vec Ideal S128x40 .f32) (x2 : Vec Ideal S5000x1 .f32)
    (j : S5000x40.Idx) :
    k2_pay1 x0 x1 x2 j = (∑ k : Fin 128, x0 (ix2 (j 0) k) * x1 (ix2 k (j 1))) * x2 (ix2 (j 0) 0) := by
  obtain ⟨a, b, rfl⟩ : ∃ (a : Fin 5000) (b : Fin 40), j = ix2 a b := ⟨j 0, j 1, eq_ix2 j⟩
  exact pay2_apply x0 x1 x2 a b

/-- When the three blocks are the arrays read where the output's block sits — the first block's row `j 0` is the
    array's row `i 0`, the weight's block is the weight, the scale block's row `j 0` is the column's row `i 0` — the body's
    stored value at `j` is the region's function at `i`. -/
theorem point2 (X0 : S100000x128.Idx → EReal) (X1 : S128x40.Idx → EReal) (X2 : S100000x1.Idx → EReal)
    (b0 : Vec Ideal S5000x128 .f32) (b1 : Vec Ideal S128x40 .f32) (b2 : Vec Ideal S5000x1 .f32)
    (j : S5000x40.Idx) (i : S100000x40.Idx)
    (h0 : ∀ k : Fin 128, b0 (ix2 (j 0) k) = X0 (ix2 (i 0) k))
    (h1 : ∀ k : Fin 128, b1 (ix2 k (j 1)) = X1 (ix2 k (i 1)))
    (h2 : b2 (ix2 (j 0) 0) = X2 (ix2 (i 0) 0)) :
    k2_pay1 b0 b1 b2 j = G2 X0 X1 X2 i := by
  rw [pay2_apply']
  show _ = (∑ k : Fin 128, X0 (ix2 (i 0) k) * X1 (ix2 k (i 1))) * X2 (ix2 (i 0) 0)
  rw [h2]
  congr 1
  exact Finset.sum_congr rfl fun k _ => by rw [h0 k, h1 k]

theorem zero_offsets2 : (![0, 0] : Fin 2 → Nat) = fun _ => 0 := funext fun a => by fin_cases a <;> rfl

/-- The printed index maps, decided over the grid: the row blocks of the first array and of the scale column move with
    the output's row block, every column block index is zero, and the weight's one block stays. -/
theorem index_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) ≤ 19 :=
  (by decide +kernel : ∀ t : Fin grid2.N, _)

/-- Every row block of the output is some grid point's. -/
theorem index_onto2 : ∀ q0 : Fin 20, ∃ t : Fin cfg2.N, win2_3.index t = ![q0.val, 0] :=
  (by decide +kernel : ∀ q0 : Fin 20, ∃ t : Fin grid2.N, win2_3.index t = ![q0.val, 0])

variable (V : (c : Dev nD) → (b : Ref sig .tc) → Buf (Elt Ideal) ((c : Thread nD τ).loc b))

/-- Window 0's block at point `t` is rows of the first array: block coordinate `x` sits at the block index times the
    block's extent plus `x`, axis by axis. -/
theorem blk2_0_apply (c : Dev nD) (t : Fin cfg2.N) (x : S5000x128.Idx) (k : S100000x128.Idx)
    (hk0 : (k 0).val = win2_0.index t (0 : Fin 2) * 5000 + (x 0).val)
    (hk1 : (k 1).val = win2_0.index t (1 : Fin 2) * 128 + (x 1).val) :
    (iblk2 (F := Ideal) V c 0 t : Vec Ideal S5000x128 .f32) x = (V c main_v49 : S100000x128.Idx → EReal) k := by
  unfold iblk2
  rw [View.read_apply]
  show (V c main_v49 : S100000x128.Idx → EReal) _ = (V c main_v49 : S100000x128.Idx → EReal) _
  congr 1
  funext a
  apply Fin.ext
  match a with
  | ⟨0, _⟩ => show win2_0.index t (0 : Fin 2) * 5000 + 1 * (x 0).val = (k 0).val; rw [hk0]; omega
  | ⟨1, _⟩ => show win2_0.index t (1 : Fin 2) * 128 + 1 * (x 1).val = (k 1).val; rw [hk1]; omega

/-- Window 1's block at point `t` is the weight. -/
theorem blk2_1_apply (c : Dev nD) (t : Fin cfg2.N) (x : S128x40.Idx) (k : S128x40.Idx)
    (hk0 : (k 0).val = win2_1.index t (0 : Fin 2) * 128 + (x 0).val)
    (hk1 : (k 1).val = win2_1.index t (1 : Fin 2) * 40 + (x 1).val) :
    (iblk2 (F := Ideal) V c 1 t : Vec Ideal S128x40 .f32) x = (V c main_arg6 : S128x40.Idx → EReal) k := by
  unfold iblk2
  rw [View.read_apply]
  show (V c main_arg6 : S128x40.Idx → EReal) _ = (V c main_arg6 : S128x40.Idx → EReal) _
  congr 1
  funext a
  apply Fin.ext
  match a with
  | ⟨0, _⟩ => show win2_1.index t (0 : Fin 2) * 128 + 1 * (x 0).val = (k 0).val; rw [hk0]; omega
  | ⟨1, _⟩ => show win2_1.index t (1 : Fin 2) * 40 + 1 * (x 1).val = (k 1).val; rw [hk1]; omega

/-- Window 2's block at point `t` is rows of the scale column. -/
theorem blk2_2_apply (c : Dev nD) (t : Fin cfg2.N) (x : S5000x1.Idx) (k : S100000x1.Idx)
    (hk0 : (k 0).val = win2_2.index t (0 : Fin 2) * 5000 + (x 0).val)
    (hk1 : (k 1).val = win2_2.index t (1 : Fin 2) * 1 + (x 1).val) :
    (iblk2 (F := Ideal) V c 2 t : Vec Ideal S5000x1 .f32) x = (V c main_v15 : S100000x1.Idx → EReal) k := by
  unfold iblk2
  rw [View.read_apply]
  show (V c main_v15 : S100000x1.Idx → EReal) _ = (V c main_v15 : S100000x1.Idx → EReal) _
  congr 1
  funext a
  apply Fin.ext
  match a with
  | ⟨0, _⟩ => show win2_2.index t (0 : Fin 2) * 5000 + 1 * (x 0).val = (k 0).val; rw [hk0]; omega
  | ⟨1, _⟩ => show win2_2.index t (1 : Fin 2) * 1 + 1 * (x 1).val = (k 1).val; rw [hk1]; omega

/-- What point `t` writes back to the output array is block `t` of the region's function of the three arrays as the
    region finds them. -/
theorem flushed2_eq (c : Dev nD) (t : Fin cfg2.N) :
    (dat2 (F := Ideal) V c).flushed 3 t
      = ((cfg2.win 3).blk t).view.read (Elt Ideal) (G2 (V c main_v49) (V c main_arg6) (V c main_v15)) := by
  show (cfg2.win 3).cut (grid2.coords t) ((dat2 (F := Ideal) V c).after 3 t) = _
  rw [after2_3]
  unfold out2_3
  rw [View.canon_unit_zero zero_offsets2]
  simp only [View.ld_unit_zero (S := S5000x128) zero_offsets2, View.ld_unit_zero (S := S128x40) zero_offsets2, View.ld_unit_zero (S := S5000x1) zero_offsets2]
  obtain ⟨e0, e1, e2, e3, e4, e5, e6, e7⟩ := index_facts2 t
  funext j
  show k2_pay1 (iblk2 V c 0 t) (iblk2 V c 1 t) (iblk2 V c 2 t) j
    = G2 (V c main_v49) (V c main_arg6) (V c main_v15) (((cfg2.win 3).blk t).view.emb j)
  have E0 : ((((cfg2.win 3).blk t).view.emb j) 0).val = win2_3.index t (0 : Fin 2) * 5000 + 1 * (j 0).val := rfl
  have E1 : ((((cfg2.win 3).blk t).view.emb j) 1).val = win2_3.index t (1 : Fin 2) * 40 + 1 * (j 1).val := rfl
  refine point2 _ _ _ _ _ _ j _ (fun k => blk2_0_apply V c t _ _ ?_ ?_) (fun k => blk2_1_apply V c t _ _ ?_ ?_)
    (blk2_2_apply V c t _ _ ?_ ?_)
  · show ((((cfg2.win 3).blk t).view.emb j) 0).val = win2_0.index t (0 : Fin 2) * 5000 + (j 0).val
    rw [E0, e0]; omega
  · show k.val = win2_0.index t (1 : Fin 2) * 128 + k.val
    rw [e1]; omega
  · show k.val = win2_1.index t (0 : Fin 2) * 128 + k.val
    rw [e2]; omega
  · show ((((cfg2.win 3).blk t).view.emb j) 1).val = win2_1.index t (1 : Fin 2) * 40 + (j 1).val
    rw [E1, e3, e6]; omega
  · show ((((cfg2.win 3).blk t).view.emb j) 0).val = win2_2.index t (0 : Fin 2) * 5000 + (j 0).val
    rw [E0, e4]; omega
  · show (0 : Fin 1).val = win2_2.index t (1 : Fin 2) * 1 + (0 : Fin 1).val
    rw [e5]; omega

/-- An index of the output array is in point `t`'s block iff each coordinate is in the block's range on its axis. -/
theorem mem_blk2 (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v50).slice (win2_3.rect t)).set ↔ _
  rw [View.set_slice_whole, Rect.mem_set_unit]
  exact Iff.rfl

/-- The output's blocks cover its array: row `r` is in the block of the point whose row block index is `r / 5000`. -/
theorem cover2 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  obtain ⟨t, ht⟩ := index_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

/-- The output array after region 2, whole: the region's function of the three arrays as the region finds them. -/
theorem final2 (c : Dev nD) :
    (dat2 (F := Ideal) V c).arrAt 3 cfg2.N = G2 (V c main_v49) (V c main_arg6) (V c main_v15) :=
  (dat2 (F := Ideal) V c).arrAt_eq_of_cover 3 (G2 (V c main_v49) (V c main_arg6) (V c main_v15))
    (fun t _ => flushed2_eq V c t) cover2

/-- The region's function at row `p` and column `q`, spelt out. -/
theorem G2_apply (X0 : S100000x128.Idx → EReal) (X1 : S128x40.Idx → EReal) (X2 : S100000x1.Idx → EReal)
    (p : Fin 100000) (q : Fin 40) :
    G2 X0 X1 X2 (ix2 p q) = (∑ k : Fin 128, X0 (ix2 p k) * X1 (ix2 k q)) * X2 (ix2 p 0) := rfl

/-- The output array after region 2 at row `p` and column `q`, in the region's function. -/
theorem arr2 (c : Dev nD) (p : Fin 100000) (q : Fin 40) :
    (dat2 (F := Ideal) V c).arrAt 3 cfg2.N (ix2 p q) = G2 (V c main_v49) (V c main_arg6) (V c main_v15) (ix2 p q) :=
  congrFun (final2 V c) (ix2 p q)

/-- The output array after region 2 at row `p` and column `q`, with the three arrays the region reads named: the row of
    the first times the column of the weight, summed over the contracted coordinate, times the row's scale. -/
theorem arr2_of (c : Dev nD) (p : Fin 100000) (q : Fin 40)
    (X0 : S100000x128.Idx → EReal) (X1 : S128x40.Idx → EReal) (X2 : S100000x1.Idx → EReal)
    (h0 : V c main_v49 = X0) (h1 : V c main_arg6 = X1) (h2 : V c main_v15 = X2) :
    (dat2 (F := Ideal) V c).arrAt 3 cfg2.N (ix2 p q)
      = (∑ k : Fin 128, X0 (ix2 p k) * X1 (ix2 k q)) * X2 (ix2 p 0) := by
  subst h0 h1 h2
  exact congrFun (final2 V c) (ix2 p q)

end Cert.KernelIdeal.RegionValue

end
-- ==== Proof.KValue.lean ====
/-
  The idealized kernel program's result as one composed function of its arguments. Walking the segment boundaries from
  the launch: the first stretches leave the edge lists, the inverse square-root degrees `dinv` and their column; each
  pallas_call leaves (h·W)·dinv, the dense transform with row n scaled by dinv[n]; the stretch after it gathers those rows
  at the sources, sums them into the targets, scales row n by dinv[n] again, adds the bias and (twice) applies relu.
  What a segment does not write it keeps, so the edge lists, the column of dinv and the arguments reach every later segment.
-/
import proofs.«172743_j15590731285080_2_alg».proof.Proof.KStages
import proofs.«172743_j15590731285080_2_alg».proof.Proof.RegionValue0
import proofs.«172743_j15590731285080_2_alg».proof.Proof.RegionValue1
import proofs.«172743_j15590731285080_2_alg».proof.Proof.RegionValue2

set_option maxRecDepth 16384

noncomputable section

namespace Cert.KernelIdeal.KValue

open Cert.KernelIdeal Cert.KernelIdeal.Gen Cert.KernelIdeal.KStages Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The sources, the targets (each followed by the self loops), the inverse square-root degrees and their column. -/
abbrev src : IVec S1700000 32 := edgeList 0 slices_S2x1600000_S1x1600000_0_0 (m ((c : Thread nD τ).loc main_arg1))
abbrev dst : IVec S1700000 32 := edgeList 1 slices_S2x1600000_S1x1600000_1_0 (m ((c : Thread nD τ).loc main_arg1))
abbrev dinv : FVec Ideal S100000 .f32 := dinvOf (degOf (dst m c))
abbrev dcol : FVec Ideal S100000x1 .f32 := broadcastInDim S100000x1 ![0] bcast_S100000_S100000x1_0 (dinv m c)

/-! ## Region 0's entry -/

theorem W3_v3 : W3 m ρ c (Proc.devRef .tc main_v3) = src m c :=
  (kept_hostOps0_2 _ (r := main_v3) (by decide)).trans ((kept_hostOps0_1 _ (r := main_v3) (by decide)).trans (pre_src _))
theorem W3_v6 : W3 m ρ c (Proc.devRef .tc main_v6) = dst m c :=
  (kept_hostOps0_2 _ (r := main_v6) (by decide)).trans ((kept_hostOps0_1 _ (r := main_v6) (by decide)).trans (pre_dst _))
theorem W3_v14 : W3 m ρ c (Proc.devRef .tc main_v14) = dinv m c :=
  (pre_dinv _).trans (congrArg (fun d => dinvOf (degOf d)) (pre_dst _))
theorem W3_v15 : W3 m ρ c (Proc.devRef .tc main_v15) = dcol m c := by
  have h := pre_dcol (F := Ideal) (W0 m ρ c)
  rw [show after (hostOps0_2 (F := Ideal)) (after hostOps0_1 (after hostOps0 (W0 m ρ c))) (Proc.devRef .tc main_v14) = dinv m c
    from W3_v14 m ρ c] at h
  exact h
/-- An argument array reaches region 0 as launched. -/
theorem W3_arg {r : Ref sig .tc} (h0 : r ∉ w_hostOps0) (h1 : r ∉ w_hostOps0_1) (h2 : r ∉ w_hostOps0_2) :
    W3 m ρ c (Proc.devRef .tc r) = m ((c : Thread nD τ).loc r) :=
  (kept_hostOps0_2 _ h2).trans ((kept_hostOps0_1 _ h1).trans (kept_hostOps0 _ h0))

/-! ## Through the regions and the later stretches: what is carried -/

section Carry
variable {r : Ref sig .tc}

theorem W4_c (n0 : ∀ w, Pipeline.arrRef spec0 w ≠ r) : W4 m ρ c (Proc.devRef .tc r) = W3 m ρ c (Proc.devRef .tc r) :=
  W4_of_ne m ρ c r n0
theorem W6_c (n0 : ∀ w, Pipeline.arrRef spec0 w ≠ r) (h1 : r ∉ w_hostOps1) (h11 : r ∉ w_hostOps1_1) :
    W6 m ρ c (Proc.devRef .tc r) = W3 m ρ c (Proc.devRef .tc r) :=
  (kept_hostOps1_1 _ h11).trans ((kept_hostOps1 _ h1).trans (W4_c m ρ c n0))
theorem W7_c (n0 : ∀ w, Pipeline.arrRef spec0 w ≠ r) (h1 : r ∉ w_hostOps1) (h11 : r ∉ w_hostOps1_1)
    (n1 : ∀ w, Pipeline.arrRef spec1 w ≠ r) : W7 m ρ c (Proc.devRef .tc r) = W3 m ρ c (Proc.devRef .tc r) :=
  (W7_of_ne m ρ c r n1).trans (W6_c m ρ c n0 h1 h11)
theorem W9_c (n0 : ∀ w, Pipeline.arrRef spec0 w ≠ r) (h1 : r ∉ w_hostOps1) (h11 : r ∉ w_hostOps1_1)
    (n1 : ∀ w, Pipeline.arrRef spec1 w ≠ r) (h2 : r ∉ w_hostOps2) (h21 : r ∉ w_hostOps2_1) :
    W9 m ρ c (Proc.devRef .tc r) = W3 m ρ c (Proc.devRef .tc r) :=
  (kept_hostOps2_1 _ h21).trans ((kept_hostOps2 _ h2).trans (W7_c m ρ c n0 h1 h11 n1))
theorem W10_c (n0 : ∀ w, Pipeline.arrRef spec0 w ≠ r) (h1 : r ∉ w_hostOps1) (h11 : r ∉ w_hostOps1_1)
    (n1 : ∀ w, Pipeline.arrRef spec1 w ≠ r) (h2 : r ∉ w_hostOps2) (h21 : r ∉ w_hostOps2_1)
    (n2 : ∀ w, Pipeline.arrRef spec2 w ≠ r) : W10 m ρ c (Proc.devRef .tc r) = W3 m ρ c (Proc.devRef .tc r) :=
  (W10_of_ne m ρ c r n2).trans (W9_c m ρ c n0 h1 h11 n1 h2 h21)

end Carry

/-- The column of `dinv` is an input window of every region: each leaves it as it found it. -/
theorem W4_v15 : W4 m ρ c (Proc.devRef .tc main_v15) = dcol m c :=
  ((W4_arr m ρ c 2).trans (((dat0 (V3 m ρ) c).arrAt_in 2 rfl _).trans (A_eq0 (V3 m ρ) c 2))).trans (W3_v15 m ρ c)
theorem W6_v15 : W6 m ρ c (Proc.devRef .tc main_v15) = dcol m c :=
  (kept_hostOps1_1 _ (r := main_v15) (by decide)).trans ((kept_hostOps1 _ (r := main_v15) (by decide)).trans (W4_v15 m ρ c))
theorem W7_v15 : W7 m ρ c (Proc.devRef .tc main_v15) = dcol m c :=
  ((W7_arr m ρ c 2).trans (((dat1 (V6 m ρ) c).arrAt_in 2 rfl _).trans (A_eq1 (V6 m ρ) c 2))).trans (W6_v15 m ρ c)
theorem W9_v15 : W9 m ρ c (Proc.devRef .tc main_v15) = dcol m c :=
  (kept_hostOps2_1 _ (r := main_v15) (by decide)).trans ((kept_hostOps2 _ (r := main_v15) (by decide)).trans (W7_v15 m ρ c))
theorem W10_v15 : W10 m ρ c (Proc.devRef .tc main_v15) = dcol m c :=
  ((W10_arr m ρ c 2).trans (((dat2 (V9 m ρ) c).arrAt_in 2 rfl _).trans (A_eq2 (V9 m ρ) c 2))).trans (W9_v15 m ρ c)

/-! ## The regions' values at given entry contents -/

theorem final0_of (V : (c : Dev nD) → (b : Ref sig .tc) → Buf (Elt Ideal) ((c : Thread nD τ).loc b))
    (X0 : S100000x128.Idx → EReal) (X1 : S128x128.Idx → EReal) (X2 : S100000x1.Idx → EReal)
    (h0 : V c main_arg0 = X0) (h1 : V c main_arg2 = X1) (h2 : V c main_v15 = X2) :
    (dat0 (F := Ideal) V c).arrAt 3 cfg0.N = G0 X0 X1 X2 := by
  subst h0 h1 h2; exact final0 V c
theorem final1_of (V : (c : Dev nD) → (b : Ref sig .tc) → Buf (Elt Ideal) ((c : Thread nD τ).loc b))
    (X0 : S100000x128.Idx → EReal) (X1 : S128x128.Idx → EReal) (X2 : S100000x1.Idx → EReal)
    (h0 : V c main_v32 = X0) (h1 : V c main_arg4 = X1) (h2 : V c main_v15 = X2) :
    (dat1 (F := Ideal) V c).arrAt 3 cfg1.N = G1 X0 X1 X2 := by
  subst h0 h1 h2; exact final1 V c
theorem final2_of (V : (c : Dev nD) → (b : Ref sig .tc) → Buf (Elt Ideal) ((c : Thread nD τ).loc b))
    (X0 : S100000x128.Idx → EReal) (X1 : S128x40.Idx → EReal) (X2 : S100000x1.Idx → EReal)
    (h0 : V c main_v49 = X0) (h1 : V c main_arg6 = X1) (h2 : V c main_v15 = X2) :
    (dat2 (F := Ideal) V c).arrAt 3 cfg2.N = G2 X0 X1 X2 := by
  subst h0 h1 h2; exact final2 V c

/-! ## The three layers -/

/-- The arguments, by name. -/
abbrev a0 : S100000x128.Idx → EReal := m ((c : Thread nD τ).loc main_arg0)
abbrev a2 : S128x128.Idx → EReal := m ((c : Thread nD τ).loc main_arg2)
abbrev a3 : FVec Ideal S128 .f32 := m ((c : Thread nD τ).loc main_arg3)
abbrev a4 : S128x128.Idx → EReal := m ((c : Thread nD τ).loc main_arg4)
abbrev a5 : FVec Ideal S128 .f32 := m ((c : Thread nD τ).loc main_arg5)
abbrev a6 : S128x40.Idx → EReal := m ((c : Thread nD τ).loc main_arg6)
abbrev a7 : FVec Ideal S40 .f32 := m ((c : Thread nD τ).loc main_arg7)

/-- The node features after the first and after the second layer. -/
abbrev x1 : FVec Ideal S100000x128 .f32 :=
  relu128 (layer128 (G0 (a0 m c) (a2 m c) (dcol m c)) (src m c) (dst m c) (dcol m c) (a3 m c))
abbrev x2 : FVec Ideal S100000x128 .f32 :=
  relu128 (layer128 (G1 (x1 m c) (a4 m c) (dcol m c)) (src m c) (dst m c) (dcol m c) (a5 m c))

theorem W4_v16 : W4 m ρ c (Proc.devRef .tc main_v16) = G0 (a0 m c) (a2 m c) (dcol m c) :=
  (W4_arr m ρ c 3).trans (final0_of c (V3 m ρ) _ _ _
    (W3_arg m ρ c (r := main_arg0) (by decide) (by decide) (by decide))
    (W3_arg m ρ c (r := main_arg2) (by decide) (by decide) (by decide)) (W3_v15 m ρ c))

theorem W6_v32 : W6 m ρ c (Proc.devRef .tc main_v32) = x1 m c := by
  refine (stage1 (W4 m ρ c)).trans ?_
  rw [W4_v16 m ρ c, W4_v15 m ρ c, W4_c m ρ c (r := main_v3) (by decide), W3_v3 m ρ c,
    W4_c m ρ c (r := main_v6) (by decide), W3_v6 m ρ c, W4_c m ρ c (r := main_arg3) (by decide),
    W3_arg m ρ c (r := main_arg3) (by decide) (by decide) (by decide)]

theorem W7_v33 : W7 m ρ c (Proc.devRef .tc main_v33) = G1 (x1 m c) (a4 m c) (dcol m c) :=
  (W7_arr m ρ c 3).trans (final1_of c (V6 m ρ) _ _ _ (W6_v32 m ρ c)
    ((W6_c m ρ c (r := main_arg4) (by decide) (by decide) (by decide)).trans
      (W3_arg m ρ c (r := main_arg4) (by decide) (by decide) (by decide))) (W6_v15 m ρ c))

theorem W9_v49 : W9 m ρ c (Proc.devRef .tc main_v49) = x2 m c := by
  refine (stage2 (W7 m ρ c)).trans ?_
  rw [W7_v33 m ρ c, W7_v15 m ρ c, W7_c m ρ c (r := main_v3) (by decide) (by decide) (by decide) (by decide), W3_v3 m ρ c,
    W7_c m ρ c (r := main_v6) (by decide) (by decide) (by decide) (by decide), W3_v6 m ρ c,
    W7_c m ρ c (r := main_arg5) (by decide) (by decide) (by decide) (by decide),
    W3_arg m ρ c (r := main_arg5) (by decide) (by decide) (by decide)]

theorem W10_v50 : W10 m ρ c (Proc.devRef .tc main_v50) = G2 (x2 m c) (a6 m c) (dcol m c) :=
  (W10_arr m ρ c 3).trans (final2_of c (V9 m ρ) _ _ _ (W9_v49 m ρ c)
    ((W9_c m ρ c (r := main_arg6) (by decide) (by decide) (by decide) (by decide) (by decide) (by decide)).trans
      (W3_arg m ρ c (r := main_arg6) (by decide) (by decide) (by decide))) (W9_v15 m ρ c))

/-- WHAT THE PROGRAM RETURNS: the last layer of the composed function of the arguments. -/
theorem W11_v65 : W11 m ρ c (Proc.devRef .tc main_v65)
    = layer40 (G2 (x2 m c) (a6 m c) (dcol m c)) (src m c) (dst m c) (dcol m c) (a7 m c) := by
  refine (stage3 (W10 m ρ c)).trans ?_
  rw [W10_v50 m ρ c, W10_v15 m ρ c,
    W10_c m ρ c (r := main_v3) (by decide) (by decide) (by decide) (by decide) (by decide) (by decide) (by decide), W3_v3 m ρ c,
    W10_c m ρ c (r := main_v6) (by decide) (by decide) (by decide) (by decide) (by decide) (by decide) (by decide), W3_v6 m ρ c,
    W10_c m ρ c (r := main_arg7) (by decide) (by decide) (by decide) (by decide) (by decide) (by decide) (by decide),
    W3_arg m ρ c (r := main_arg7) (by decide) (by decide) (by decide)]

end Cert.KernelIdeal.KValue

end
-- ==== Proof.LibRowGatherScatter.lean ====
/-
  Row gather and row scatter read at an index: the row gather of a two-axis array at a column of start indices, the
  gather of a flat array at a column of start indices, and where a row scatter (a segment sum of rows) lands an update.
-/
import Idealize.ShloMosaic.Lib.ValueIdx

noncomputable section

namespace RowGatherScatter

open Idealize.ShloMosaic Idealize.ShloMosaic.ValueIdx

/-! ## Row gather of an `[N, D]` array at a column `[E, 1]` of start indices -/

/-- The dimension numbers of the row gather `h[idx]`: operand `[N, D]`, start indices `[E, 1]`, result `[E, D]`;
    axis 0 of the operand is collapsed and indexed, axis 1 is the offset axis taken whole. -/
abbrev gRows (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, f)`: the operand at row `idx[e, 0]`, read signed and clamped into `[0, N − 1]`,
    and column `f`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (gRows N D E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (gRows N D E wf).start (ix2 e f) idx 0 + (gRows N D E wf).batchCoord (ix2 e f) 0
      + (gRows N D E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gRows N D E wf).startIndexMap from List.mem_singleton.mpr rfl)]
    have hsi : (gRows N D E wf).siIdx (ix2 e f) ⟨List.idxOf (0 : Fin 2) (gRows N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gRows N D E wf).start (ix2 e f) idx 1 + (gRows N D E wf).batchCoord (ix2 e f) 1
      + (gRows N D E wf).offCoord (ix2 e f) 1 = _
    rw [GatherDims.batchCoord_eq_zero _ _ _ List.not_mem_nil]
    unfold GatherDims.start
    rw [dif_neg (show (1 : Fin 2) ∉ [(0 : Fin 2)] by decide)]
    have hk : (1 : Fin 2) ∈ (gRows N D E wf).sKept :=
      (GatherDims.mem_sKept _ _).mpr ⟨show (1 : Fin 2) ∉ [(0 : Fin 2)] by decide, List.not_mem_nil⟩
    unfold GatherDims.offCoord
    rw [dif_pos hk]
    simp only [Nat.add_zero, Nat.zero_add]
    rfl

/-! ## Gather of a flat `[N]` array at a column `[E, 1]` of start indices -/

/-- The dimension numbers of the gather `v[idx]`: operand `[N]`, start indices `[E, 1]`, result `[E]`; the
    operand's one axis is collapsed and indexed. -/
abbrev gVec (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at `idx[e, 0]`, read signed and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gVec N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gVec N E wf).start (ix1 e) idx 0 + (gVec N E wf).batchCoord (ix1 e) 0 + (gVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gVec N E wf).startIndexMap from List.mem_singleton.mpr rfl)]
  have hsi : (gVec N E wf).siIdx (ix1 e) ⟨List.idxOf (0 : Fin 1) (gVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Row scatter of `[E, D]` updates into an `[N, D]` array at a column `[E, 1]` of row numbers -/

/-- The dimension numbers of the row scatter (a segment sum of rows): operand `[N, D]`, scatter indices `[E, 1]`,
    updates `[E, D]`; axis 0 of the operand is the scattered (inserted) axis, axis 1 the window axis. -/
abbrev sRows (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N D E w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the scattered axis the window starts at the update row's scatter index, read signed. -/
theorem sRows_start0 :
    (sRows N D E wf).start j idx 0 = (idx (ix2 ⟨(j 0).val, idx2_lt0 j⟩ (0 : Fin 1))).toInt := by
  unfold ScatterDims.start
  rw [dif_pos (show (0 : Fin 2) ∈ (sRows N D E wf).scatterDimsToOperandDims from List.mem_singleton.mpr rfl)]
  have hsi : (sRows N D E wf).siIdx j ⟨List.idxOf (0 : Fin 2) (sRows N D E wf).scatterDimsToOperandDims,
      List.idxOf_lt_length_iff.2 (List.mem_singleton.mpr rfl)⟩ = ix2 ⟨(j 0).val, idx2_lt0 j⟩ (0 : Fin 1) := by
    funext b; refine Fin.ext ?_
    match b with
    | ⟨0, _⟩ => rfl
    | ⟨1, _⟩ => rfl
  rw [hsi]

/-- On the window axis the window starts at 0. -/
theorem sRows_start1 : (sRows N D E wf).start j idx 1 = 0 := by
  unfold ScatterDims.start
  rw [dif_neg (show (1 : Fin 2) ∉ [(0 : Fin 2)] by decide)]

/-- The scattered axis carries no window coordinate. -/
theorem sRows_window0 : (sRows N D E wf).window j 0 = 0 := by
  unfold ScatterDims.window
  rw [dif_neg]
  intro h
  have : (0 : Fin 2) ∉ [(0 : Fin 2)] := by
    simpa [ScatterDims.sKept, Shape.kept, List.mem_filter] using h
  exact this (List.mem_singleton.mpr rfl)

/-- The window axis carries the update's column. -/
theorem sRows_window1 : (sRows N D E wf).window j 1 = (j 1).val := by
  have hk : (1 : Fin 2) ∈ (sRows N D E wf).sKept := by
    simp [ScatterDims.sKept, Shape.kept, List.mem_filter]
  unfold ScatterDims.window
  rw [dif_pos hk]
  rfl

/-- Where a row scatter lands an update: update `(e, f)` lands at `(n, c)` exactly when the row's scatter index,
    read signed, is `n` and `c = f`. -/
theorem scatter_rows_hit_iff (i : (⟨2, ![N, D]⟩ : Shape).Idx) :
    (sRows N D E wf).resultIdx? j idx = some i ↔
      (idx (ix2 ⟨(j 0).val, idx2_lt0 j⟩ (0 : Fin 1))).toInt = ((i 0).val : Int) ∧ (i 1).val = (j 1).val := by
  have h0 : (sRows N D E wf).start j idx 0 + (sRows N D E wf).window j 0
      = (idx (ix2 ⟨(j 0).val, idx2_lt0 j⟩ (0 : Fin 1))).toInt := by
    rw [sRows_start0, sRows_window0]; simp
  have h1 : (sRows N D E wf).start j idx 1 + (sRows N D E wf).window j 1 = ((j 1).val : Int) := by
    rw [sRows_start1, sRows_window1]; simp
  have hi0 := idx2_lt0 i
  have hi1 := idx2_lt1 i
  have hj1 := idx2_lt1 j
  unfold ScatterDims.resultIdx?
  constructor
  · intro h
    split at h
    · rename_i hall
      have hi := Option.some.inj h
      have e0 : (i 0).val = ((sRows N D E wf).start j idx 0 + (sRows N D E wf).window j 0).toNat := by
        rw [← hi]
      have e1 : (i 1).val = ((sRows N D E wf).start j idx 1 + (sRows N D E wf).window j 1).toNat := by
        rw [← hi]
      have p0 := (hall 0).1
      rw [h0] at e0 p0
      rw [h1] at e1
      refine ⟨by omega, by omega⟩
    · exact absurd h (by simp)
  · rintro ⟨g0, g1⟩
    have hall : ∀ a : Fin 2, 0 ≤ (sRows N D E wf).start j idx a + (sRows N D E wf).window j a ∧
        (sRows N D E wf).start j idx a + (sRows N D E wf).window j a < ((⟨2, ![N, D]⟩ : Shape).size a : Int) := by
      intro a
      match a with
      | ⟨0, _⟩ =>
        show 0 ≤ (sRows N D E wf).start j idx 0 + (sRows N D E wf).window j 0 ∧
          (sRows N D E wf).start j idx 0 + (sRows N D E wf).window j 0 < (N : Int)
        rw [h0, g0]; omega
      | ⟨1, _⟩ =>
        show 0 ≤ (sRows N D E wf).start j idx 1 + (sRows N D E wf).window j 1 ∧
          (sRows N D E wf).start j idx 1 + (sRows N D E wf).window j 1 < (D : Int)
        rw [h1]; omega
    rw [dif_pos hall]
    congr 1
    funext a
    refine Fin.ext ?_
    match a with
    | ⟨0, _⟩ =>
      show ((sRows N D E wf).start j idx 0 + (sRows N D E wf).window j 0).toNat = (i 0).val
      rw [h0, g0]; omega
    | ⟨1, _⟩ =>
      show ((sRows N D E wf).start j idx 1 + (sRows N D E wf).window j 1).toNat = (i 1).val
      rw [h1]; omega

/-- An update row lands in row `n` only if its scatter index, read signed, is `n`; it keeps its column. -/
theorem scatter_rows_hit (i : (⟨2, ![N, D]⟩ : Shape).Idx)
    (h : (sRows N D E wf).resultIdx? j idx = some i) :
    (idx (ix2 ⟨(j 0).val, idx2_lt0 j⟩ (0 : Fin 1))).toInt = ((i 0).val : Int) ∧ (i 1).val = (j 1).val :=
  (scatter_rows_hit_iff wf idx j i).mp h

end Scatter

end RowGatherScatter

end
-- ==== Proof.LibERealScale.lean ====
/-
  Scaling extended reals by a non-negative real: multiplication by a non-negative real distributes over a finite sum of
  extended reals, and the reciprocal square root of a positive extended real is a non-negative real.
-/
import Idealize.ShloMosaic.PureOps.Ideal

noncomputable section

open scoped BigOperators

namespace ERealScale

open Idealize.ShloMosaic

/-- Multiplication by a non-negative real distributes over any finite sum of extended reals (the terms may be
    infinite, of either sign). -/
theorem sum_mul_coe_nonneg {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The same with the real factor on the left. -/
theorem coe_nonneg_mul_sum {ι : Type*} (s : Finset ι) (f : ι → EReal) {r : ℝ} (hr : 0 ≤ r) :
    (r : EReal) * (∑ j ∈ s, f j) = ∑ j ∈ s, (r : EReal) * f j := by
  rw [mul_comm, sum_mul_coe_nonneg s f hr]
  exact Finset.sum_congr rfl fun j _ => mul_comm _ _

/-- The reciprocal square root of a positive extended real (`⊤` included, where it is `0`) is a non-negative
    real. -/
theorem rsqrt_of_pos (v : EReal) (hv : 0 < v) : ∃ r : ℝ, 0 ≤ r ∧ Ideal.rsqrt v = (r : EReal) := by
  induction v using EReal.rec with
  | bot => exact absurd hv (by simp)
  | top => exact ⟨0, le_refl _, by simp⟩
  | coe x =>
    have hx : 0 < x := EReal.coe_pos.mp hv
    refine ⟨(Real.sqrt x)⁻¹, inv_nonneg.mpr (Real.sqrt_nonneg x), ?_⟩
    rw [Ideal.rsqrt_coe, if_neg (not_lt.mpr hx.le), if_neg hx.ne']

/-- The reciprocal square root of a degree where the degree is positive, and `0` elsewhere, is a non-negative
    real. -/
theorem dinv_real (deg : EReal) :
    ∃ r : ℝ, 0 ≤ r ∧ (if 0 < deg then Ideal.rsqrt deg else (0 : EReal)) = (r : EReal) := by
  by_cases h : 0 < deg
  · obtain ⟨r, hr, he⟩ := rsqrt_of_pos deg h
    exact ⟨r, hr, by rw [if_pos h, he]⟩
  · exact ⟨0, le_refl _, by rw [if_neg h]; rfl⟩

end ERealScale

end
-- ==== Proof.LibGcnLayer.lean ====
/-
  One graph-convolution layer's aggregation at the extended reals: the row scatter-add (a segment sum) of gathered rows,
  scaled by the inverse square-root degrees. Scaling the rows before the gather and the sums after the scatter, or scaling
  each gathered row by the product of the two degrees' factors, both give the same normal form.
-/
import proofs.«172743_j15590731285080_2_alg».proof.Proof.LibRowGatherScatter
import proofs.«172743_j15590731285080_2_alg».proof.Proof.LibERealScale

noncomputable section

open scoped BigOperators

namespace GcnLayer

open RowGatherScatter ERealScale Idealize.ShloMosaic Idealize.ShloMosaic.ValueIdx

/-- The clamped start row of edge `e`: its start index read signed and clamped into `[0, N − 1]`. -/
def gidx {N E : Nat} (hN : 0 < N) (col : IVec ⟨2, ![E, 1]⟩ 32) (e : Fin E) : Fin N :=
  ⟨min (col (ix2 e (0 : Fin 1))).toInt.toNat (N - 1), by omega⟩

/-- The update elements that the row scatter lands at `i`. -/
def hits {N D E : Nat} (wfs : ScatterDims.WF ⟨2, ![N, D]⟩ ⟨2, ![E, 1]⟩ ⟨2, ![E, D]⟩ [1] [0] [0] 1)
    (dstcol : IVec ⟨2, ![E, 1]⟩ 32) (i : (⟨2, ![N, D]⟩ : Shape).Idx) : Finset (⟨2, ![E, D]⟩ : Shape).Idx :=
  Finset.univ.filter (fun j => (sRows N D E wfs).resultIdx? j dstcol = some i)

/-- The normal form of the aggregation at `i`: the sum, over the update elements landing at `i`, of the source row's
    element times the source's and the target's inverse square-root degrees. -/
def agg {N D E : Nat} (hN : 0 < N) (wfs : ScatterDims.WF ⟨2, ![N, D]⟩ ⟨2, ![E, 1]⟩ ⟨2, ![E, D]⟩ [1] [0] [0] 1)
    (M : (⟨2, ![N, D]⟩ : Shape).Idx → EReal) (dinv : (⟨1, ![N]⟩ : Shape).Idx → EReal)
    (srccol dstcol : IVec ⟨2, ![E, 1]⟩ 32) (i : (⟨2, ![N, D]⟩ : Shape).Idx) : EReal :=
  ∑ j ∈ hits wfs dstcol i,
    M (ix2 (gidx hN srccol ⟨(j 0).val, idx2_lt0 j⟩) ⟨(j 1).val, idx2_lt1 j⟩)
      * (dinv (ix1 (gidx hN srccol ⟨(j 0).val, idx2_lt0 j⟩)) * dinv (ix1 ⟨(i 0).val, idx2_lt0 i⟩))

/-- Rows scaled by the degrees' factors BEFORE the gather, the scattered sums scaled AFTER: the normal form. -/
theorem kernel_agg {N D E : Nat} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (M R : (⟨2, ![N, D]⟩ : Shape).Idx → EReal) (dinv : (⟨1, ![N]⟩ : Shape).Idx → EReal)
    (hR : ∀ (p : Fin N) (q : Fin D), R (ix2 p q) = M (ix2 p q) * dinv (ix1 p))
    (hd : ∀ n : Fin N, ∃ r : ℝ, 0 ≤ r ∧ dinv (ix1 n) = (r : EReal))
    (z : (⟨2, ![N, D]⟩ : Shape).Idx → EReal) (hz : ∀ i, z i = 0)
    (srccol dstcol : IVec ⟨2, ![E, 1]⟩ 32) (p : Fin N) (q : Fin D) :
    Ideal.hostScatterAdd (sRows N D E wfs) z dstcol (Host.gather (gRows N D E wfg) R srccol) (ix2 p q) * dinv (ix1 p)
      = agg hN wfs M dinv srccol dstcol (ix2 p q) := by
  have key : ∀ j : (⟨2, ![E, D]⟩ : Shape).Idx, Host.gather (gRows N D E wfg) R srccol j * dinv (ix1 p)
      = M (ix2 (gidx hN srccol ⟨(j 0).val, idx2_lt0 j⟩) ⟨(j 1).val, idx2_lt1 j⟩)
        * (dinv (ix1 (gidx hN srccol ⟨(j 0).val, idx2_lt0 j⟩)) * dinv (ix1 p)) := by
    intro j
    obtain ⟨e, f, rfl⟩ : ∃ (e : Fin E) (f : Fin D), j = ix2 e f := ⟨j 0, j 1, eq_ix2 j⟩
    rw [gather_rows_apply hN wfg R srccol e f, hR, mul_assoc]
    rfl
  obtain ⟨r, hr, hpr⟩ := hd p
  unfold Ideal.hostScatterAdd agg hits
  rw [hz, zero_add]
  conv_lhs => rw [hpr]
  rw [sum_mul_coe_nonneg _ _ hr]
  refine Finset.sum_congr rfl fun j _ => ?_
  rw [← hpr]
  exact key j

/-- Each gathered row scaled by the product of the source's and the target's factors, then scattered: the normal
    form. The target's factor is gathered at a column that agrees with the scatter's column wherever that one is a
    valid row number. -/
theorem ref_agg {N D E : Nat} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (wfv : GatherDims.WF ⟨1, ![N]⟩ ⟨2, ![E, 1]⟩ ⟨1, ![E]⟩ [] [0] [] [0] [] 1 ![1])
    (M : (⟨2, ![N, D]⟩ : Shape).Idx → EReal) (dinv : (⟨1, ![N]⟩ : Shape).Idx → EReal)
    (z : (⟨2, ![N, D]⟩ : Shape).Idx → EReal) (hz : ∀ i, z i = 0)
    (srccol dstcol dstncol : IVec ⟨2, ![E, 1]⟩ 32)
    (hdn : ∀ e : Fin E, 0 ≤ (dstcol (ix2 e (0 : Fin 1))).toInt → (dstcol (ix2 e (0 : Fin 1))).toInt < (N : Int) →
      dstncol (ix2 e (0 : Fin 1)) = dstcol (ix2 e (0 : Fin 1)))
    (nrm : (⟨1, ![E]⟩ : Shape).Idx → EReal)
    (hnrm : ∀ e : Fin E, nrm (ix1 e)
      = Host.gather (gVec N E wfv) dinv srccol (ix1 e) * Host.gather (gVec N E wfv) dinv dstncol (ix1 e))
    (U : (⟨2, ![E, D]⟩ : Shape).Idx → EReal)
    (hU : ∀ (e : Fin E) (f : Fin D), U (ix2 e f) = Host.gather (gRows N D E wfg) M srccol (ix2 e f) * nrm (ix1 e))
    (p : Fin N) (q : Fin D) :
    Ideal.hostScatterAdd (sRows N D E wfs) z dstcol U (ix2 p q) = agg hN wfs M dinv srccol dstcol (ix2 p q) := by
  unfold Ideal.hostScatterAdd agg hits
  rw [hz, zero_add]
  refine Finset.sum_congr rfl fun j hj => ?_
  have hhit := (Finset.mem_filter.mp hj).2
  obtain ⟨e, f, rfl⟩ : ∃ (e : Fin E) (f : Fin D), j = ix2 e f := ⟨j 0, j 1, eq_ix2 j⟩
  have h0 : (dstcol (ix2 e (0 : Fin 1))).toInt = (p.val : Int) :=
    (scatter_rows_hit wfs dstcol (ix2 e f) (ix2 p q) hhit).1
  have hp := p.isLt
  have hn : dstncol (ix2 e (0 : Fin 1)) = dstcol (ix2 e (0 : Fin 1)) := hdn e (by omega) (by omega)
  have hrow : (⟨min (dstncol (ix2 e (0 : Fin 1))).toInt.toNat (N - 1), by omega⟩ : Fin N) = p := by
    refine Fin.ext ?_
    show min (dstncol (ix2 e (0 : Fin 1))).toInt.toNat (N - 1) = p.val
    rw [hn]; omega
  rw [hU, hnrm, gather_rows_apply hN wfg M srccol e f, gather_vec_apply hN wfv dinv srccol e,
    gather_vec_apply hN wfv dinv dstncol e, hrow]
  rfl

end GcnLayer

end
-- ==== Proof.LibGcnSpec.lean ====
/-
  The three-layer graph convolution as ONE function of its inputs, at the extended reals: the normal form both programs
  are read into. A layer sends node features h to  agg(h·W) + b, where agg sums, over the edges (and self loops) into
  node n, row src(e) of h·W times dinv[src(e)]·dinv[n]; relu follows the first two layers.
-/
import proofs.«172743_j15590731285080_2_alg».proof.Proof.LibGcnLayer

noncomputable section

namespace GcnSpec

open GcnLayer RowGatherScatter Idealize.ShloMosaic Idealize.ShloMosaic.ValueIdx

/-- The dense transform: entry (p, q) of h·W is the sum over the contracted coordinate. -/
def mm {n k d : Nat} (h : (⟨2, ![n, k]⟩ : Shape).Idx → EReal) (W : (⟨2, ![k, d]⟩ : Shape).Idx → EReal) :
    (⟨2, ![n, d]⟩ : Shape).Idx → EReal :=
  fun i => ∑ c : Fin k, h (ix2 ⟨(i 0).val, idx2_lt0 i⟩ c) * W (ix2 c ⟨(i 1).val, idx2_lt1 i⟩)

theorem mm_apply {n k d : Nat} (h : (⟨2, ![n, k]⟩ : Shape).Idx → EReal) (W : (⟨2, ![k, d]⟩ : Shape).Idx → EReal) (p : Fin n) (q : Fin d) :
    mm h W (ix2 p q) = ∑ c : Fin k, h (ix2 p c) * W (ix2 c q) := rfl

/-- One layer before its relu: the aggregated dense transform plus the bias. -/
def layer {N K D E : Nat} (hN : 0 < N) (wfs : ScatterDims.WF ⟨2, ![N, D]⟩ ⟨2, ![E, 1]⟩ ⟨2, ![E, D]⟩ [1] [0] [0] 1)
    (dinv : (⟨1, ![N]⟩ : Shape).Idx → EReal) (srccol dstcol : IVec ⟨2, ![E, 1]⟩ 32)
    (h : (⟨2, ![N, K]⟩ : Shape).Idx → EReal) (W : (⟨2, ![K, D]⟩ : Shape).Idx → EReal) (b : (⟨1, ![D]⟩ : Shape).Idx → EReal) :
    (⟨2, ![N, D]⟩ : Shape).Idx → EReal :=
  fun i => agg hN wfs (mm h W) dinv srccol dstcol i + b (ix1 ⟨(i 1).val, idx2_lt1 i⟩)

theorem layer_apply {N K D E : Nat} (hN : 0 < N) (wfs : ScatterDims.WF ⟨2, ![N, D]⟩ ⟨2, ![E, 1]⟩ ⟨2, ![E, D]⟩ [1] [0] [0] 1)
    (dinv : (⟨1, ![N]⟩ : Shape).Idx → EReal) (srccol dstcol : IVec ⟨2, ![E, 1]⟩ 32)
    (h : (⟨2, ![N, K]⟩ : Shape).Idx → EReal) (W : (⟨2, ![K, D]⟩ : Shape).Idx → EReal) (b : (⟨1, ![D]⟩ : Shape).Idx → EReal)
    (p : Fin N) (q : Fin D) :
    layer hN wfs dinv srccol dstcol h W b (ix2 p q) = agg hN wfs (mm h W) dinv srccol dstcol (ix2 p q) + b (ix1 q) := rfl

/-- relu, entry by entry. -/
def relu {s : Shape} (x : s.Idx → EReal) : s.Idx → EReal := fun i => max (x i) 0

end GcnSpec

end
-- ==== Proof.LibBroadcastReads.lean ====
/-
  `broadcast_in_dim` of the small shapes a bias, a per-row scale and a per-edge scale go through, read at an index:
  a scalar to any shape; a list [a] to a column [a, 1]; a column [a, 1] across [a, b]; a list [b] to a row [1, b]; a row
  [1, b] down [a, b].
-/
import Idealize.ShloMosaic.Lib.ValueIdx
import Idealize.ShloMosaic.Lib.Pipeline.Value

noncomputable section

namespace BroadcastReads

open Idealize.ShloMosaic Idealize.ShloMosaic.ValueIdx

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A list as a column: entry `(p, 0)` is entry `p`. -/
theorem col_apply {a : Nat} (dims : Fin 1 → Fin 2) (hd : dims 0 = 0)
    (h : (⟨1, ![a]⟩ : Shape).BroadcastsInDim ⟨2, ![a, 1]⟩ dims) (x : (⟨1, ![a]⟩ : Shape).Idx → α) (p : Fin a) (z : Fin 1) :
    broadcastInDim ⟨2, ![a, 1]⟩ dims h x (ix2 p z) = x (ix1 p) :=
  broadcastInDim_apply dims h x (ix2 p z) (ix1 p) (fun d => by
    match d with
    | ⟨0, _⟩ =>
      show p.val = if a = 1 then 0 else ((ix2 p z) (dims 0)).val
      rw [hd]
      show p.val = if a = 1 then 0 else p.val
      split
      · have := p.isLt; omega
      · rfl)

/-- A column across its rows: entry `(p, q)` is the column's entry `(p, 0)`. -/
theorem colAcross_apply {a b : Nat} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (q : Fin b) :
    broadcastInDim ⟨2, ![a, b]⟩ dims h x (ix2 p q) = x (ix2 p (0 : Fin 1)) :=
  broadcastInDim_apply dims h x (ix2 p q) (ix2 p (0 : Fin 1)) (fun d => by
    match d with
    | ⟨0, _⟩ =>
      show p.val = if a = 1 then 0 else ((ix2 p q) (dims 0)).val
      rw [hd0]
      show p.val = if a = 1 then 0 else p.val
      split
      · have := p.isLt; omega
      · rfl
    | ⟨1, _⟩ =>
      show (0 : Nat) = if (1 : Nat) = 1 then 0 else ((ix2 p q) (dims 1)).val
      rw [if_pos rfl])

/-- A list as a row: entry `(0, q)` is entry `q`. -/
theorem row_apply {b : Nat} (dims : Fin 1 → Fin 2) (hd : dims 0 = 1)
    (h : (⟨1, ![b]⟩ : Shape).BroadcastsInDim ⟨2, ![1, b]⟩ dims) (x : (⟨1, ![b]⟩ : Shape).Idx → α) (z : Fin 1) (q : Fin b) :
    broadcastInDim ⟨2, ![1, b]⟩ dims h x (ix2 z q) = x (ix1 q) :=
  broadcastInDim_apply dims h x (ix2 z q) (ix1 q) (fun d => by
    match d with
    | ⟨0, _⟩ =>
      show q.val = if b = 1 then 0 else ((ix2 z q) (dims 0)).val
      rw [hd]
      show q.val = if b = 1 then 0 else q.val
      split
      · have := q.isLt; omega
      · rfl)

/-- A row down its columns: entry `(p, q)` is the row's entry `(0, q)`. -/
theorem rowDown_apply {a b : Nat} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) :=
  broadcastInDim_apply dims h x (ix2 p q) (ix2 (0 : Fin 1) q) (fun d => by
    match d with
    | ⟨0, _⟩ =>
      show (0 : Nat) = if (1 : Nat) = 1 then 0 else ((ix2 p q) (dims 0)).val
      rw [if_pos rfl]
    | ⟨1, _⟩ =>
      show q.val = if b = 1 then 0 else ((ix2 p q) (dims 1)).val
      rw [hd1]
      show q.val = if b = 1 then 0 else q.val
      split
      · have := q.isLt; omega
      · rfl)

end BroadcastReads

end
-- ==== Proof.KBridge.lean ====
/-
  The host stretches' functions read at an index, at the extended reals: a layer after its pallas_call is the normal
  form of the aggregation plus the bias, relu is the maximum with zero, the inverse square-root degrees are non-negative
  reals, and the degrees' column reads the list.
-/
import proofs.«172743_j15590731285080_2_alg».proof.Proof.KStages
import proofs.«172743_j15590731285080_2_alg».proof.Proof.LibGcnSpec
import proofs.«172743_j15590731285080_2_alg».proof.Proof.LibBroadcastReads
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.KBridge

open Cert.KernelIdeal Cert.KernelIdeal.Gen Cert.KernelIdeal.KStages GcnLayer GcnSpec RowGatherScatter BroadcastReads ERealScale
open Idealize.ShloMosaic Idealize.ShloMosaic.ValueIdx

theorem hN : 0 < 100000 := by decide

theorem wfs128 : ScatterDims.WF ⟨2, ![100000, 128]⟩ ⟨2, ![1700000, 1]⟩ ⟨2, ![1700000, 128]⟩ [1] [0] [0] 1 := by decide
theorem wfg128 : GatherDims.WF ⟨2, ![100000, 128]⟩ ⟨2, ![1700000, 1]⟩ ⟨2, ![1700000, 128]⟩ [1] [0] [] [0] [] 1 ![1, 128] := by decide
theorem wfs40 : ScatterDims.WF ⟨2, ![100000, 40]⟩ ⟨2, ![1700000, 1]⟩ ⟨2, ![1700000, 40]⟩ [1] [0] [0] 1 := by decide
theorem wfg40 : GatherDims.WF ⟨2, ![100000, 40]⟩ ⟨2, ![1700000, 1]⟩ ⟨2, ![1700000, 40]⟩ [1] [0] [] [0] [] 1 ![1, 40] := by decide

/-- The degrees' column reads the list: entry `(p, 0)` is entry `p`. -/
theorem dcol_apply (dinv : FVec Ideal S100000 .f32) (p : Fin 100000) :
    (broadcastInDim S100000x1 ![0] bcast_S100000_S100000x1_0 dinv) (ix2 p (0 : Fin 1)) = dinv (ix1 p) :=
  col_apply ![0] rfl bcast_S100000_S100000x1_0 dinv p (0 : Fin 1)

/-- The zero splat over the 128-feature array is zero everywhere. -/
theorem zero128_apply (i : S100000x128.Idx) :
    broadcastInDim S100000x128 ![] bcast_S_S100000x128 (constant (F := Ideal) S_ .f32 0x00000000#32) i = (0 : EReal) :=
  (scalar_apply ![] bcast_S_S100000x128 _ i).trans Ideal.ofBits_zero_f32

/-- The zero splat over the 40-feature array is zero everywhere. -/
theorem zero40_apply (i : S100000x40.Idx) :
    broadcastInDim S100000x40 ![] bcast_S_S100000x40 (constant (F := Ideal) S_ .f32 0x00000000#32) i = (0 : EReal) :=
  (scalar_apply ![] bcast_S_S100000x40 _ i).trans Ideal.ofBits_zero_f32

/-- The zero splat over the node list is zero everywhere. -/
theorem zeroN_apply (i : S100000.Idx) :
    broadcastInDim S100000 ![] bcast_S_S100000 (constant (F := Ideal) S_ .f32 0x00000000#32) i = (0 : EReal) :=
  (scalar_apply ![] bcast_S_S100000 _ i).trans Ideal.ofBits_zero_f32

/-- At the extended reals the host's accumulating scatter is the exact sum, whatever the dimension numbers. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- The printed row-scatter record of the 128-feature layer is the generic one. -/
theorem scatter128_eq : (scatter_S100000x128_S1700000x1_S1700000x128_1_0_0_1 : ScatterDims S100000x128 S1700000x1 S1700000x128)
    = sRows 100000 128 1700000 wfs128 := rfl

/-- The printed row-gather record of the 128-feature layer is the generic one. -/
theorem gather128_eq : (gather_S100000x128_S1700000x1_S1700000x128_1_0_n_n_0_1_1128 : GatherDims S100000x128 S1700000x1 S1700000x128)
    = gRows 100000 128 1700000 wfg128 := rfl

/-- The 128-feature layer after its pallas_call, read at row `p` and column `q`: when the rows `R` are the rows `M` scaled
    by the inverse square-root degrees, the gather, the segment sum, the row scale and the bias give the normal form of
    the aggregation plus the bias. -/
theorem layer128_apply (R : FVec Ideal S100000x128 .f32) (M : S100000x128.Idx → EReal) (dinv : FVec Ideal S100000 .f32)
    (src dst : IVec S1700000 32) (b : FVec Ideal S128 .f32)
    (hR : ∀ (p : Fin 100000) (q : Fin 128), R (ix2 p q) = M (ix2 p q) * dinv (ix1 p))
    (hd : ∀ n : Fin 100000, ∃ r : ℝ, 0 ≤ r ∧ dinv (ix1 n) = (r : EReal)) (p : Fin 100000) (q : Fin 128) :
    layer128 (F := Ideal) R src dst (broadcastInDim S100000x1 ![0] bcast_S100000_S100000x1_0 dinv) b (ix2 p q)
      = agg hN wfs128 M dinv (ncol src) (rcol dst) (ix2 p q) + b (ix1 q) := by
  have hcol : broadcastInDim S100000x128 ![0, 1] bcast_S100000x1_S100000x128_0_1
      (broadcastInDim S100000x1 ![0] bcast_S100000_S100000x1_0 dinv) (ix2 p q) = dinv (ix1 p) :=
    (colAcross_apply ![0, 1] rfl rfl bcast_S100000x1_S100000x128_0_1 _ p q).trans (dcol_apply dinv p)
  have hbias : broadcastInDim S100000x128 ![0, 1] bcast_S1x128_S100000x128_0_1
      (broadcastInDim S1x128 ![1] bcast_S128_S1x128_1 b) (ix2 p q) = b (ix1 q) :=
    (rowDown_apply ![0, 1] rfl rfl bcast_S1x128_S100000x128_0_1 _ p q).trans
      (row_apply ![1] rfl bcast_S128_S1x128_1 b (0 : Fin 1) q)
  unfold layer128
  rw [addf_apply, mulf_apply, hcol, hbias, scatter128_eq, gather128_eq, scatterAdd_ideal]
  exact congrArg (· + b (ix1 q))
    (kernel_agg hN wfs128 wfg128 M R dinv hR hd _ zero128_apply (ncol src) (rcol dst) p q)

/-- The printed row-scatter record of the 40-feature layer is the generic one. -/
theorem scatter40_eq : (scatter_S100000x40_S1700000x1_S1700000x40_1_0_0_1 : ScatterDims S100000x40 S1700000x1 S1700000x40)
    = sRows 100000 40 1700000 wfs40 := rfl

/-- The printed row-gather record of the 40-feature layer is the generic one. -/
theorem gather40_eq : (gather_S100000x40_S1700000x1_S1700000x40_1_0_n_n_0_1_140 : GatherDims S100000x40 S1700000x1 S1700000x40)
    = gRows 100000 40 1700000 wfg40 := rfl

/-- The 40-feature layer after its pallas_call, read at row `p` and column `q`: when the rows `R` are the rows `M` scaled
    by the inverse square-root degrees, the gather, the segment sum, the row scale and the bias give the normal form of
    the aggregation plus the bias. -/
theorem layer40_apply (R : FVec Ideal S100000x40 .f32) (M : S100000x40.Idx → EReal) (dinv : FVec Ideal S100000 .f32)
    (src dst : IVec S1700000 32) (b : FVec Ideal S40 .f32)
    (hR : ∀ (p : Fin 100000) (q : Fin 40), R (ix2 p q) = M (ix2 p q) * dinv (ix1 p))
    (hd : ∀ n : Fin 100000, ∃ r : ℝ, 0 ≤ r ∧ dinv (ix1 n) = (r : EReal)) (p : Fin 100000) (q : Fin 40) :
    layer40 (F := Ideal) R src dst (broadcastInDim S100000x1 ![0] bcast_S100000_S100000x1_0 dinv) b (ix2 p q)
      = agg hN wfs40 M dinv (ncol src) (rcol dst) (ix2 p q) + b (ix1 q) := by
  have hcol : broadcastInDim S100000x40 ![0, 1] bcast_S100000x1_S100000x40_0_1
      (broadcastInDim S100000x1 ![0] bcast_S100000_S100000x1_0 dinv) (ix2 p q) = dinv (ix1 p) :=
    (colAcross_apply ![0, 1] rfl rfl bcast_S100000x1_S100000x40_0_1 _ p q).trans (dcol_apply dinv p)
  have hbias : broadcastInDim S100000x40 ![0, 1] bcast_S1x40_S100000x40_0_1
      (broadcastInDim S1x40 ![1] bcast_S40_S1x40_1 b) (ix2 p q) = b (ix1 q) :=
    (rowDown_apply ![0, 1] rfl rfl bcast_S1x40_S100000x40_0_1 _ p q).trans
      (row_apply ![1] rfl bcast_S40_S1x40_1 b (0 : Fin 1) q)
  unfold layer40
  rw [addf_apply, mulf_apply, hcol, hbias, scatter40_eq, gather40_eq, scatterAdd_ideal]
  exact congrArg (· + b (ix1 q))
    (kernel_agg hN wfs40 wfg40 M R dinv hR hd _ zero40_apply (ncol src) (rcol dst) p q)
/-- relu on the 128-feature array, entry by entry: the maximum with zero. -/
theorem relu128_apply (x : FVec Ideal S100000x128 .f32) (i : S100000x128.Idx) : relu128 (F := Ideal) x i = max (x i) 0 := by
  unfold relu128
  show max (x i) (broadcastInDim S100000x128 ![] bcast_S_S100000x128 (constant (F := Ideal) S_ .f32 0x00000000#32) i) = _
  rw [zero128_apply]

/-- The inverse square-root degree of a node is the reciprocal square root of its degree where that is positive and zero
    elsewhere. -/
theorem dinvOf_apply (deg : FVec Ideal S100000 .f32) (n : Fin 100000) :
    dinvOf (F := Ideal) deg (ix1 n) = if 0 < deg (ix1 n) then Ideal.rsqrt (deg (ix1 n)) else (0 : EReal) := by
  unfold dinvOf
  show Scalar.select (Ideal.cmp .ogt (deg (ix1 n))
      (broadcastInDim S100000 ![] bcast_S_S100000 (constant (F := Ideal) S_ .f32 0x00000000#32) (ix1 n)))
    (Ideal.rsqrt (deg (ix1 n)))
    (broadcastInDim S100000 ![] bcast_S_S100000 (constant (F := Ideal) S_ .f32 0x00000000#32) (ix1 n)) = _
  rw [zeroN_apply]
  by_cases h : 0 < deg (ix1 n)
  · rw [if_pos h]
    have hc : Ideal.cmp .ogt (deg (ix1 n)) 0 = 1#1 := by
      show BitVec.ofBool (decide (0 < deg (ix1 n))) = 1#1
      rw [decide_eq_true h]; rfl
    rw [hc, select_one]
  · rw [if_neg h]
    have hc : Ideal.cmp .ogt (deg (ix1 n)) 0 = 0#1 := by
      show BitVec.ofBool (decide (0 < deg (ix1 n))) = 0#1
      rw [decide_eq_false h]; rfl
    rw [hc, select_zero]

/-- So it is a non-negative real. -/
theorem dinvOf_real (deg : FVec Ideal S100000 .f32) (n : Fin 100000) :
    ∃ r : ℝ, 0 ≤ r ∧ dinvOf (F := Ideal) deg (ix1 n) = (r : EReal) := by
  rw [dinvOf_apply]
  exact dinv_real _

end Cert.KernelIdeal.KBridge

end
-- ==== Proof.RStages.lean ====
/-
  The reference program's operations, read as functions, one consecutive stretch at a time: the edge lists and the
  inverse square-root degrees; the per-edge normalisation (the product of the two gathered inverse square-root degrees);
  then three layers, each the dense transform, the row gather along the sources scaled by the normalisation, the sum into
  the targets and the bias, the first two followed by relu. Each lemma reads one stretch at a buffer as the stretch's
  operations applied to the contents before it; buffers a stretch does not write keep their contents.
-/
import proofs.«172743_j15590731285080_2_alg».proof.Proof.RefRun

set_option maxRecDepth 16384

noncomputable section

namespace Cert.ReferenceIdeal.RStages

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- A start-index list with every negative entry moved up by the node count, as a column. -/
def ncol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A segment-id list as a column. -/
def rcol (v : IVec S1700000 32) : IVec S1700000x1 32 := broadcastInDim S1700000x1 ![0] bcast_S1700000_S1700000x1_0 v

/-- The per-edge normalisation: the inverse square-root degree at the edge's source times that at its target. -/
def nrmOf (dinv : FVec F S100000 .f32) (src dst : IVec S1700000 32) : FVec F S1700000 .f32 :=
  mulf (Host.gather gather_S100000_S1700000x1_S1700000_n_0_n_n_0_1_1 dinv (ncol src))
    (Host.gather gather_S100000_S1700000x1_S1700000_n_0_n_n_0_1_1 dinv (ncol dst))

/-- One layer, 128 output features: the dense transform, its rows gathered at the sources and scaled by the per-edge
    normalisation, summed into the targets, plus the bias. -/
def layer128 (h : FVec F S100000x128 .f32) (W : FVec F S128x128 .f32) (src dst : IVec S1700000 32) (nrm : FVec F S1700000 .f32)
    (b : FVec F S128 .f32) : FVec F S100000x128 .f32 :=
  addf (Host.scatterAdd scatter_S100000x128_S1700000x1_S1700000x128_1_0_0_1
      (broadcastInDim S100000x128 ![] bcast_S_S100000x128 (constant S_ .f32 0x00000000#32)) (rcol dst)
      (mulf (Host.gather gather_S100000x128_S1700000x1_S1700000x128_1_0_n_n_0_1_1128
          (Host.dotGeneral dot_S100000x128_S128x128_S100000x128_1_0_0_1_n_n none h W) (ncol src))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- relu on a 128-feature array. -/
def relu128 (x : FVec F S100000x128 .f32) : FVec F S100000x128 .f32 :=
  maximumf x (broadcastInDim S100000x128 ![] bcast_S_S100000x128 (constant S_ .f32 0x00000000#32))

/-- The last layer, 40 output features. -/
def layer40 (h : FVec F S100000x128 .f32) (W : FVec F S128x40 .f32) (src dst : IVec S1700000 32) (nrm : FVec F S1700000 .f32)
    (b : FVec F S40 .f32) : FVec F S100000x40 .f32 :=
  addf (Host.scatterAdd scatter_S100000x40_S1700000x1_S1700000x40_1_0_0_1
      (broadcastInDim S100000x40 ![] bcast_S_S100000x40 (constant S_ .f32 0x00000000#32)) (rcol dst)
      (mulf (Host.gather gather_S100000x40_S1700000x1_S1700000x40_1_0_n_n_0_1_140
          (Host.dotGeneral dot_S100000x128_S128x40_S100000x40_1_0_0_1_n_n none h W) (ncol src))
        (broadcastInDim S1700000x40 ![0, 1] bcast_S1700000x1_S1700000x40_0_1
          (broadcastInDim S1700000x1 ![0] bcast_S1700000_S1700000x1_0 nrm))))
    (broadcastInDim S100000x40 ![0, 1] bcast_S1x40_S100000x40_0_1 (broadcastInDim S1x40 ![1] bcast_S40_S1x40_1 b))

/-- The source (row 0) or target (row 1) list of the edges followed by one self loop per node. -/
def edgeList (row : Nat) (h : S2x1600000.Slices ![row, 0] S1x1600000) (x1 : IVec S2x1600000 32) : IVec S1700000 32 :=
  concatenate S1700000 0 [⟨S1600000, shapeCast _ (extractStridedSlice S1x1600000 ![row, 0] x1 h) shapeCasts_S1x1600000_S1600000⟩,
    ⟨S100000, iotaInDim S100000 32 0⟩] concatenates_S1600000_S100000_S1700000_d0

/-- The degrees: one per edge and self loop, summed into the targets. -/
def degOf (dst : IVec S1700000 32) : FVec F S100000 .f32 :=
  Host.scatterAdd scatter_S100000_S1700000x1_S1700000_n_0_0_1 (broadcastInDim S100000 ![] bcast_S_S100000 (constant S_ .f32 0x00000000#32))
    (rcol dst) (broadcastInDim S1700000 ![] bcast_S_S1700000 (constant S_ .f32 0x3F800000#32))

/-- The inverse square-root degrees, zero where the degree is not positive. -/
def dinvOf (deg : FVec F S100000 .f32) : FVec F S100000 .f32 :=
  select (cmpf .ogt deg (broadcastInDim S100000 ![] bcast_S_S100000 (constant S_ .f32 0x00000000#32))) (Host.rsqrt deg)
    (broadcastInDim S100000 ![] bcast_S_S100000 (constant S_ .f32 0x00000000#32))

variable (V : Valuation τ sig (Elt F))

set_option maxHeartbeats 4000000 in
theorem pre_src : after (opsA (F := F)) V (Proc.devRef .tc main_v3)
    = edgeList 0 slices_S2x1600000_S1x1600000_0_0 (V (Proc.devRef .tc main_arg1)) := by
  unfold edgeList
  dsimp only [opsA]
  after_results
  rfl

set_option maxHeartbeats 4000000 in
theorem pre_dst : after (opsA (F := F)) V (Proc.devRef .tc main_v6)
    = edgeList 1 slices_S2x1600000_S1x1600000_1_0 (V (Proc.devRef .tc main_arg1)) := by
  unfold edgeList
  dsimp only [opsA]
  after_results
  rfl

set_option maxHeartbeats 4000000 in
theorem pre_dinv : after (opsA (F := F)) V (Proc.devRef .tc main_v14)
    = dinvOf (degOf (after opsA V (Proc.devRef .tc main_v6))) := by
  unfold dinvOf degOf rcol
  dsimp only [opsA]
  after_results_simp <;> rfl

set_option maxHeartbeats 4000000 in
/-- The normalisation stretch writes the product of the two gathers. -/
theorem stageN : after (opsN (F := F)) V (Proc.devRef .tc main_v29)
    = nrmOf (V (Proc.devRef .tc main_v14)) (V (Proc.devRef .tc main_v3)) (V (Proc.devRef .tc main_v6)) := by
  dsimp only [opsN]
  after_results_simp <;> rfl

set_option maxHeartbeats 4000000 in
/-- The first layer's stretch writes relu of the layer. -/
theorem stage1 : after (opsL1 (F := F)) V (Proc.devRef .tc main_v47)
    = relu128 (layer128 (V (Proc.devRef .tc main_arg0)) (V (Proc.devRef .tc main_arg2)) (V (Proc.devRef .tc main_v3))
        (V (Proc.devRef .tc main_v6)) (V (Proc.devRef .tc main_v29)) (V (Proc.devRef .tc main_arg3))) := by
  dsimp only [opsL1]
  after_results_simp <;> rfl

set_option maxHeartbeats 4000000 in
/-- The second layer's stretch writes relu of the layer. -/
theorem stage2 : after (opsL2 (F := F)) V (Proc.devRef .tc main_v65)
    = relu128 (layer128 (V (Proc.devRef .tc main_v47)) (V (Proc.devRef .tc main_arg4)) (V (Proc.devRef .tc main_v3))
        (V (Proc.devRef .tc main_v6)) (V (Proc.devRef .tc main_v29)) (V (Proc.devRef .tc main_arg5))) := by
  dsimp only [opsL2]
  after_results_simp <;> rfl

set_option maxHeartbeats 4000000 in
/-- The last layer's stretch writes the layer. -/
theorem stage3 : after (opsL3 (F := F)) V (Proc.devRef .tc main_v82)
    = layer40 (V (Proc.devRef .tc main_v65)) (V (Proc.devRef .tc main_arg6)) (V (Proc.devRef .tc main_v3))
        (V (Proc.devRef .tc main_v6)) (V (Proc.devRef .tc main_v29)) (V (Proc.devRef .tc main_arg7)) := by
  dsimp only [opsL3]
  after_results_simp <;> rfl

/-! ## What a stretch does not write -/

/-- The buffers `opsA` writes. -/
def w_opsA : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14]
set_option maxHeartbeats 4000000 in
/-- A buffer `opsA` does not write keeps its contents. -/
theorem kept_opsA {r : Ref sig .tc} (hr : r ∉ w_opsA) : after (opsA (F := F)) V (Proc.devRef .tc r) = V (Proc.devRef .tc r) :=
  after_of_writes_sub _ V (by
    simp only [opsA, w_opsA, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `opsN` writes. -/
def w_opsN : List (Ref sig .tc) := [main_c, main_v15, main_v16, main_c_3, main_v17, main_v18, main_v19, main_v20, main_v21, main_c_4, main_v22, main_v23, main_c_5, main_v24, main_v25, main_v26, main_v27, main_v28, main_v29]
set_option maxHeartbeats 4000000 in
/-- A buffer `opsN` does not write keeps its contents. -/
theorem kept_opsN {r : Ref sig .tc} (hr : r ∉ w_opsN) : after (opsN (F := F)) V (Proc.devRef .tc r) = V (Proc.devRef .tc r) :=
  after_of_writes_sub _ V (by
    simp only [opsN, w_opsN, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `opsL1` writes. -/
def w_opsL1 : List (Ref sig .tc) := [main_v30, main_c_6, main_v31, main_v32, main_c_7, main_v33, main_v34, main_v35, main_v36, main_v37, main_v38, main_v39, main_v40, main_cst_8, main_v41, main_v42, main_v43, main_v44, main_v45, main_v46, main_call1_cst, main_call1_v0, main_v47]
set_option maxHeartbeats 4000000 in
/-- A buffer `opsL1` does not write keeps its contents. -/
theorem kept_opsL1 {r : Ref sig .tc} (hr : r ∉ w_opsL1) : after (opsL1 (F := F)) V (Proc.devRef .tc r) = V (Proc.devRef .tc r) :=
  after_of_writes_sub _ V (by
    simp only [opsL1, w_opsL1, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

/-- The buffers `opsL2` writes. -/
def w_opsL2 : List (Ref sig .tc) := [main_v48, main_c_9, main_v49, main_v50, main_c_10, main_v51, main_v52, main_v53, main_v54, main_v55, main_v56, main_v57, main_v58, main_cst_11, main_v59, main_v60, main_v61, main_v62, main_v63, main_v64, main_call2_cst, main_call2_v0, main_v65]
set_option maxHeartbeats 4000000 in
/-- A buffer `opsL2` does not write keeps its contents. -/
theorem kept_opsL2 {r : Ref sig .tc} (hr : r ∉ w_opsL2) : after (opsL2 (F := F)) V (Proc.devRef .tc r) = V (Proc.devRef .tc r) :=
  after_of_writes_sub _ V (by
    simp only [opsL2, w_opsL2, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr
/-- The buffers `opsL3` writes. -/
def w_opsL3 : List (Ref sig .tc) := [main_v66, main_c_12, main_v67, main_v68, main_c_13, main_v69, main_v70, main_v71, main_v72, main_v73, main_v74, main_v75, main_v76, main_cst_14, main_v77, main_v78, main_v79, main_v80, main_v81, main_v82]
set_option maxHeartbeats 4000000 in
/-- A buffer `opsL3` does not write keeps its contents. -/
theorem kept_opsL3 {r : Ref sig .tc} (hr : r ∉ w_opsL3) : after (opsL3 (F := F)) V (Proc.devRef .tc r) = V (Proc.devRef .tc r) :=
  after_of_writes_sub _ V (by
    simp only [opsL3, w_opsL3, List.Forall, StableHlo.nullary_writes, StableHlo.unary_writes, StableHlo.binary_writes, StableHlo.ternary_writes, StableHlo.quaternary_writes, StableHlo.reshape_writes, StableHlo.binaryIndexed_writes]
    repeat' apply And.intro
    all_goals exact Finset.singleton_subset_iff.mpr (List.mem_toFinset.mpr (List.mem_map_of_mem (by decide)))) hr

end Cert.ReferenceIdeal.RStages

end
-- ==== Proof.RValue.lean ====
/-
  The reference program's result as one composed function of its arguments: its operations, cut into five consecutive
  stretches, are read one stretch at a time from the launch contents — the edge lists and the inverse square-root degrees,
  the per-edge normalisation, then the three layers.
-/
import proofs.«172743_j15590731285080_2_alg».proof.Proof.RStages
import Idealize.ShloMosaic.PureOps.Ideal

set_option maxRecDepth 16384

noncomputable section

namespace Cert.ReferenceIdeal.RValue

open Cert.ReferenceIdeal Cert.ReferenceIdeal.Gen Cert.ReferenceIdeal.RunP Cert.ReferenceIdeal.RStages
open Idealize.ShloMosaic Idealize.ShloMosaic.TcCoe Idealize.SL.Sem Idealize.ShloMosaic.StableHlo

/-- Two stretches run one after the other leave what the second leaves from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (c : Dev nD)

/-- The buffer contents at the launch and after each stretch. -/
abbrev V0 : Valuation τ sig (Elt Ideal) := launchContents m c
abbrev VA : Valuation τ sig (Elt Ideal) := after opsA (V0 m c)
abbrev VN : Valuation τ sig (Elt Ideal) := after opsN (VA m c)
abbrev V1 : Valuation τ sig (Elt Ideal) := after opsL1 (VN m c)
abbrev V2 : Valuation τ sig (Elt Ideal) := after opsL2 (V1 m c)

theorem ops_split : after (ops (F := Ideal)) (launchContents m c) = after opsL3 (V2 m c) := by
  show after (opsA ++ (opsN ++ (opsL1 ++ (opsL2 ++ opsL3)))) (launchContents m c) = _
  rw [after_append, after_append, after_append, after_append]

/-- The sources, the targets (each followed by the self loops), the inverse square-root degrees, the normalisation. -/
abbrev src : IVec S1700000 32 := edgeList 0 slices_S2x1600000_S1x1600000_0_0 (m ((c.tc : Thread nD τ).loc main_arg1))
abbrev dst : IVec S1700000 32 := edgeList 1 slices_S2x1600000_S1x1600000_1_0 (m ((c.tc : Thread nD τ).loc main_arg1))
abbrev dinv : FVec Ideal S100000 .f32 := dinvOf (degOf (dst m c))
abbrev nrm : FVec Ideal S1700000 .f32 := nrmOf (dinv m c) (src m c) (dst m c)

theorem VA_v3 : VA m c (Proc.devRef .tc main_v3) = src m c := pre_src _
theorem VA_v6 : VA m c (Proc.devRef .tc main_v6) = dst m c := pre_dst _
theorem VA_v14 : VA m c (Proc.devRef .tc main_v14) = dinv m c :=
  (pre_dinv _).trans (congrArg (fun d => dinvOf (degOf d)) (pre_dst _))

section Carry
variable {r : Ref sig .tc}
theorem VA_c (hA : r ∉ w_opsA) : VA m c (Proc.devRef .tc r) = m ((c.tc : Thread nD τ).loc r) := kept_opsA _ hA
theorem VN_c (hN : r ∉ w_opsN) : VN m c (Proc.devRef .tc r) = VA m c (Proc.devRef .tc r) := kept_opsN _ hN
theorem V1_c (h1 : r ∉ w_opsL1) : V1 m c (Proc.devRef .tc r) = VN m c (Proc.devRef .tc r) := kept_opsL1 _ h1
theorem V2_c (h2 : r ∉ w_opsL2) : V2 m c (Proc.devRef .tc r) = V1 m c (Proc.devRef .tc r) := kept_opsL2 _ h2
end Carry

theorem VN_v3 : VN m c (Proc.devRef .tc main_v3) = src m c := (VN_c m c (by decide)).trans (VA_v3 m c)
theorem VN_v6 : VN m c (Proc.devRef .tc main_v6) = dst m c := (VN_c m c (by decide)).trans (VA_v6 m c)
theorem VN_v29 : VN m c (Proc.devRef .tc main_v29) = nrm m c := by
  refine (stageN (VA m c)).trans ?_
  rw [VA_v3 m c, VA_v6 m c, VA_v14 m c]
theorem VN_arg {r : Ref sig .tc} (hA : r ∉ w_opsA) (hN : r ∉ w_opsN) : VN m c (Proc.devRef .tc r) = m ((c.tc : Thread nD τ).loc r) :=
  (VN_c m c hN).trans (VA_c m c hA)

/-- The arguments, by name. -/
abbrev a0 : FVec Ideal S100000x128 .f32 := m ((c.tc : Thread nD τ).loc main_arg0)
abbrev a2 : FVec Ideal S128x128 .f32 := m ((c.tc : Thread nD τ).loc main_arg2)
abbrev a3 : FVec Ideal S128 .f32 := m ((c.tc : Thread nD τ).loc main_arg3)
abbrev a4 : FVec Ideal S128x128 .f32 := m ((c.tc : Thread nD τ).loc main_arg4)
abbrev a5 : FVec Ideal S128 .f32 := m ((c.tc : Thread nD τ).loc main_arg5)
abbrev a6 : FVec Ideal S128x40 .f32 := m ((c.tc : Thread nD τ).loc main_arg6)
abbrev a7 : FVec Ideal S40 .f32 := m ((c.tc : Thread nD τ).loc main_arg7)

/-- The node features after the first and after the second layer. -/
abbrev x1 : FVec Ideal S100000x128 .f32 := relu128 (layer128 (a0 m c) (a2 m c) (src m c) (dst m c) (nrm m c) (a3 m c))
abbrev x2 : FVec Ideal S100000x128 .f32 := relu128 (layer128 (x1 m c) (a4 m c) (src m c) (dst m c) (nrm m c) (a5 m c))

theorem V1_v47 : V1 m c (Proc.devRef .tc main_v47) = x1 m c := by
  refine (stage1 (VN m c)).trans ?_
  rw [VN_v3 m c, VN_v6 m c, VN_v29 m c, VN_arg m c (r := main_arg0) (by decide) (by decide),
    VN_arg m c (r := main_arg2) (by decide) (by decide), VN_arg m c (r := main_arg3) (by decide) (by decide)]

theorem V1_k {r : Ref sig .tc} (h1 : r ∉ w_opsL1) (hA : r ∉ w_opsA) (hN : r ∉ w_opsN) :
    V1 m c (Proc.devRef .tc r) = m ((c.tc : Thread nD τ).loc r) := (V1_c m c h1).trans (VN_arg m c hA hN)

theorem V2_v65 : V2 m c (Proc.devRef .tc main_v65) = x2 m c := by
  refine (stage2 (V1 m c)).trans ?_
  rw [V1_v47 m c, V1_c m c (r := main_v3) (by decide), VN_v3 m c, V1_c m c (r := main_v6) (by decide), VN_v6 m c,
    V1_c m c (r := main_v29) (by decide), VN_v29 m c, V1_k m c (r := main_arg4) (by decide) (by decide) (by decide),
    V1_k m c (r := main_arg5) (by decide) (by decide) (by decide)]

/-- WHAT THE PROGRAM RETURNS: the last layer of the composed function of the arguments. -/
theorem out_v82 : after (ops (F := Ideal)) (launchContents m c) (Proc.devRef .tc main_v82)
    = layer40 (x2 m c) (a6 m c) (src m c) (dst m c) (nrm m c) (a7 m c) := by
  rw [ops_split m c]
  refine (stage3 (V2 m c)).trans ?_
  rw [V2_v65 m c, V2_c m c (r := main_v3) (by decide), V1_c m c (r := main_v3) (by decide), VN_v3 m c,
    V2_c m c (r := main_v6) (by decide), V1_c m c (r := main_v6) (by decide), VN_v6 m c,
    V2_c m c (r := main_v29) (by decide), V1_c m c (r := main_v29) (by decide), VN_v29 m c,
    V2_c m c (r := main_arg6) (by decide), V1_k m c (r := main_arg6) (by decide) (by decide) (by decide),
    V2_c m c (r := main_arg7) (by decide), V1_k m c (r := main_arg7) (by decide) (by decide) (by decide)]

/-- Every argument array ends as launched: no operation writes one. -/
theorem out_arg {r : Ref sig .tc} (hA : r ∉ w_opsA) (hN : r ∉ w_opsN) (h1 : r ∉ w_opsL1) (h2 : r ∉ w_opsL2) (h3 : r ∉ w_opsL3) :
    after (ops (F := Ideal)) (launchContents m c) (Proc.devRef .tc r) = m ((c.tc : Thread nD τ).loc r) := by
  rw [ops_split m c]
  exact (kept_opsL3 _ h3).trans ((V2_c m c h2).trans (V1_k m c h1 hA hN))

theorem out_arg0 : after (ops (F := Ideal)) (launchContents m c) (Proc.devRef .tc main_arg0) = m ((c.tc : Thread nD τ).loc main_arg0) :=
  out_arg m c (by decide) (by decide) (by decide) (by decide) (by decide)
theorem out_arg1 : after (ops (F := Ideal)) (launchContents m c) (Proc.devRef .tc main_arg1) = m ((c.tc : Thread nD τ).loc main_arg1) :=
  out_arg m c (by decide) (by decide) (by decide) (by decide) (by decide)
theorem out_arg2 : after (ops (F := Ideal)) (launchContents m c) (Proc.devRef .tc main_arg2) = m ((c.tc : Thread nD τ).loc main_arg2) :=
  out_arg m c (by decide) (by decide) (by decide) (by decide) (by decide)
theorem out_arg3 : after (ops (F := Ideal)) (launchContents m c) (Proc.devRef .tc main_arg3) = m ((c.tc : Thread nD τ).loc main_arg3) :=
  out_arg m c (by decide) (by decide) (by decide) (by decide) (by decide)
theorem out_arg4 : after (ops (F := Ideal)) (launchContents m c) (Proc.devRef .tc main_arg4) = m ((c.tc : Thread nD τ).loc main_arg4) :=
  out_arg m c (by decide) (by decide) (by decide) (by decide) (by decide)
theorem out_arg5 : after (ops (F := Ideal)) (launchContents m c) (Proc.devRef .tc main_arg5) = m ((c.tc : Thread nD τ).loc main_arg5) :=
  out_arg m c (by decide) (by decide) (by decide) (by decide) (by decide)
theorem out_arg6 : after (ops (F := Ideal)) (launchContents m c) (Proc.devRef .tc main_arg6) = m ((c.tc : Thread nD τ).loc main_arg6) :=
  out_arg m c (by decide) (by decide) (by decide) (by decide) (by decide)
theorem out_arg7 : after (ops (F := Ideal)) (launchContents m c) (Proc.devRef .tc main_arg7) = m ((c.tc : Thread nD τ).loc main_arg7) :=
  out_arg m c (by decide) (by decide) (by decide) (by decide) (by decide)

end Cert.ReferenceIdeal.RValue

end
-- ==== Proof.RBridge.lean ====
/-
  The reference's spelling of one graph-convolution layer, read at an entry, is the normal form of the aggregation of
  the dense transform plus the bias; its start-index normalisation leaves a non-negative index alone; its relu is the
  maximum with zero.
-/
import proofs.«172743_j15590731285080_2_alg».proof.Proof.RStages
import proofs.«172743_j15590731285080_2_alg».proof.Proof.LibGcnSpec
import proofs.«172743_j15590731285080_2_alg».proof.Proof.LibBroadcastReads
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember

set_option maxRecDepth 16384

noncomputable section

open scoped BigOperators

namespace Cert.ReferenceIdeal.RBridge

open Cert.ReferenceIdeal Cert.ReferenceIdeal.Gen Cert.ReferenceIdeal.RStages GcnLayer GcnSpec RowGatherScatter
  BroadcastReads Idealize.ShloMosaic Idealize.ShloMosaic.ValueIdx Idealize.ShloMosaic.StackMember

/-- There is at least one node. -/
theorem hN : 0 < 100000 := by decide

/-- The conditions on the 128-feature row scatter's dimension numbers. -/
theorem wfs128 : ScatterDims.WF ⟨2, ![100000, 128]⟩ ⟨2, ![1700000, 1]⟩ ⟨2, ![1700000, 128]⟩ [1] [0] [0] 1 := by decide
/-- The conditions on the 128-feature row gather's dimension numbers. -/
theorem wfg128 : GatherDims.WF ⟨2, ![100000, 128]⟩ ⟨2, ![1700000, 1]⟩ ⟨2, ![1700000, 128]⟩ [1] [0] [] [0] [] 1 ![1, 128] := by
  decide
/-- The conditions on the 40-feature row scatter's dimension numbers. -/
theorem wfs40 : ScatterDims.WF ⟨2, ![100000, 40]⟩ ⟨2, ![1700000, 1]⟩ ⟨2, ![1700000, 40]⟩ [1] [0] [0] 1 := by decide
/-- The conditions on the 40-feature row gather's dimension numbers. -/
theorem wfg40 : GatherDims.WF ⟨2, ![100000, 40]⟩ ⟨2, ![1700000, 1]⟩ ⟨2, ![1700000, 40]⟩ [1] [0] [] [0] [] 1 ![1, 40] := by
  decide
/-- The conditions on the flat gather's dimension numbers. -/
theorem wfv : GatherDims.WF ⟨1, ![100000]⟩ ⟨2, ![1700000, 1]⟩ ⟨1, ![1700000]⟩ [] [0] [] [0] [] 1 ![1] := by decide

/-- A list as a column reads the list's entry. -/
theorem rcol_apply (v : IVec S1700000 32) (e : Fin 1700000) : rcol v (ix2 e (0 : Fin 1)) = v (ix1 e) :=
  col_apply ![0] rfl bcast_S1700000_S1700000x1_0 v e 0

/-- The normalisation (a negative index moved up by the node count) leaves a non-negative index alone. -/
theorem ncol_fix (v : IVec S1700000 32) (e : Fin 1700000) (h0 : 0 ≤ (v (ix1 e)).toInt) :
    ncol v (ix2 e (0 : Fin 1)) = rcol v (ix2 e (0 : Fin 1)) := by
  rw [rcol_apply]
  have hb : broadcastInDim S1700000 ![] bcast_S_S1700000 (constantI S_ 32 0#32) (ix1 e) = 0#32 :=
    scalar_apply _ bcast_S_S1700000 (constantI S_ 32 0#32) (ix1 e)
  have hs : (v (ix1 e)).slt 0#32 = false := by
    show decide ((v (ix1 e)).toInt < (0#32 : BitVec 32).toInt) = false
    exact decide_eq_false (by rw [show (0#32 : BitVec 32).toInt = 0 by decide]; omega)
  have hc : cmpi .slt v (broadcastInDim S1700000 ![] bcast_S_S1700000 (constantI S_ 32 0#32)) (ix1 e) = 0#1 := by
    show BitVec.ofBool ((v (ix1 e)).slt (broadcastInDim S1700000 ![] bcast_S_S1700000 (constantI S_ 32 0#32) (ix1 e))) = 0#1
    rw [hb, hs]
    rfl
  unfold ncol
  refine (col_apply ![0] rfl bcast_S1700000_S1700000x1_0 _ e 0).trans ?_
  rw [select_apply, hc, select_zero]

/-- At the extended reals the host's accumulating scatter is the exact sum, whatever the dimension numbers. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- The printed flat-gather record is the generic one. -/
theorem gatherV_eq : (gather_S100000_S1700000x1_S1700000_n_0_n_n_0_1_1 : GatherDims S100000 S1700000x1 S1700000)
    = gVec 100000 1700000 wfv := rfl

/-- The per-edge normalisation, read at an edge: the product of the two gathered inverse square-root degrees. -/
theorem nrmOf_apply (dinv : FVec Ideal S100000 .f32) (src dst : IVec S1700000 32) (e : Fin 1700000) :
    nrmOf (F := Ideal) dinv src dst (ix1 e)
      = Host.gather (gVec 100000 1700000 wfv) dinv (ncol src) (ix1 e)
        * Host.gather (gVec 100000 1700000 wfv) dinv (ncol dst) (ix1 e) := by
  unfold nrmOf
  rw [mulf_apply, gatherV_eq]

/-- The printed row-scatter record of the 128-feature layer is the generic one. -/
theorem scatter128_eq : (scatter_S100000x128_S1700000x1_S1700000x128_1_0_0_1 : ScatterDims S100000x128 S1700000x1 S1700000x128)
    = sRows 100000 128 1700000 wfs128 := rfl

/-- The printed row-gather record of the 128-feature layer is the generic one. -/
theorem gather128_eq : (gather_S100000x128_S1700000x1_S1700000x128_1_0_n_n_0_1_1128 : GatherDims S100000x128 S1700000x1 S1700000x128)
    = gRows 100000 128 1700000 wfg128 := rfl

/-- The printed dimension numbers of the 128-feature layer's dense transform are the plain matrix product's. -/
theorem dot128_eq : (dot_S100000x128_S128x128_S100000x128_1_0_0_1_n_n : DotDims S100000x128 S128x128 S100000x128) = DotDims.plain 100000 128 128 := rfl

/-- The dense transform of the 128-feature layer, read as the sum over the contracted coordinate. -/
theorem dot128_eq_mm (h : FVec Ideal S100000x128 .f32) (W : FVec Ideal S128x128 .f32) :
    (Host.dotGeneral dot_S100000x128_S128x128_S100000x128_1_0_0_1_n_n none h W : FVec Ideal S100000x128 .f32) = mm h W := by
  rw [dot128_eq]
  funext i
  obtain ⟨a, c, rfl⟩ : ∃ (a : Fin 100000) (c : Fin 128), i = ix2 a c := ⟨i 0, i 1, eq_ix2 i⟩
  exact (dotGeneral_plain_apply none h W a c).trans (mm_apply h W a c).symm

/-- The zero array of the 128-feature layer's sum reads zero everywhere. -/
theorem zeros128_apply (i : S100000x128.Idx) :
    (broadcastInDim S100000x128 ![] bcast_S_S100000x128 (constant (F := Ideal) S_ .f32 0x00000000#32)) i = (0 : EReal) :=
  (scalar_apply ![] bcast_S_S100000x128 _ i).trans Ideal.ofBits_zero_f32

/-- The 128-feature layer of the reference, read at an entry: the normal form of the aggregation of the dense
    transform, plus the bias. -/
theorem layer128_apply (h : FVec Ideal S100000x128 .f32) (W : FVec Ideal S128x128 .f32) (src dst : IVec S1700000 32)
    (dinv : FVec Ideal S100000 .f32) (b : FVec Ideal S128 .f32) (p : Fin 100000) (q : Fin 128) :
    layer128 (F := Ideal) h W src dst (nrmOf (F := Ideal) dinv src dst) b (ix2 p q)
      = agg hN wfs128 (mm h W) dinv (ncol src) (rcol dst) (ix2 p q) + b (ix1 q) := by
  have hbias : broadcastInDim S100000x128 ![0, 1] bcast_S1x128_S100000x128_0_1
      (broadcastInDim S1x128 ![1] bcast_S128_S1x128_1 b) (ix2 p q) = b (ix1 q) :=
    (rowDown_apply ![0, 1] rfl rfl bcast_S1x128_S100000x128_0_1 _ p q).trans
      (row_apply ![1] rfl bcast_S128_S1x128_1 b (0 : Fin 1) q)
  have hU : ∀ (e : Fin 1700000) (f : Fin 128), (mulf (Host.gather (gRows 100000 128 1700000 wfg128) (mm h W) (ncol src))
        (broadcastInDim S1700000x128 ![0, 1] bcast_S1700000x1_S1700000x128_0_1
          (broadcastInDim S1700000x1 ![0] bcast_S1700000_S1700000x1_0 (nrmOf (F := Ideal) dinv src dst)))) (ix2 e f)
      = Host.gather (gRows 100000 128 1700000 wfg128) (mm h W) (ncol src) (ix2 e f) * (nrmOf (F := Ideal) dinv src dst) (ix1 e) := fun e f => by
    rw [mulf_apply, colAcross_apply ![0, 1] rfl rfl bcast_S1700000x1_S1700000x128_0_1 _ e f,
      col_apply ![0] rfl bcast_S1700000_S1700000x1_0 (nrmOf (F := Ideal) dinv src dst) e (0 : Fin 1)]
  unfold layer128
  rw [addf_apply, hbias, scatter128_eq, gather128_eq, scatterAdd_ideal, dot128_eq_mm]
  have hdn : ∀ e : Fin 1700000, 0 ≤ (rcol dst (ix2 e (0 : Fin 1))).toInt →
      (rcol dst (ix2 e (0 : Fin 1))).toInt < ((100000 : Nat) : Int) →
      ncol dst (ix2 e (0 : Fin 1)) = rcol dst (ix2 e (0 : Fin 1)) := fun e h0 _ =>
    ncol_fix dst e (by rw [rcol_apply] at h0; exact h0)
  have hz : ∀ i, (broadcastInDim S100000x128 ![] bcast_S_S100000x128 (constant (F := Ideal) S_ .f32 0x00000000#32)) i = (0 : EReal) := zeros128_apply
  have hnrm := nrmOf_apply dinv src dst
  refine congrArg (· + b (ix1 q)) ?_
  have key := (ref_agg hN wfs128 wfg128 wfv (mm h W) dinv (broadcastInDim S100000x128 ![] bcast_S_S100000x128 (constant (F := Ideal) S_ .f32 0x00000000#32)) hz (ncol src) (rcol dst) (ncol dst)
      hdn
      (nrmOf (F := Ideal) dinv src dst) (nrmOf_apply dinv src dst) (mulf (Host.gather (gRows 100000 128 1700000 wfg128) (mm h W) (ncol src))
        (broadcastInDim S1700000x128 ![0, 1] bcast_S1700000x1_S1700000x128_0_1
          (broadcastInDim S1700000x1 ![0] bcast_S1700000_S1700000x1_0 (nrmOf (F := Ideal) dinv src dst)))) hU p q)
  exact key

/-- The printed row-scatter record of the 40-feature layer is the generic one. -/
theorem scatter40_eq : (scatter_S100000x40_S1700000x1_S1700000x40_1_0_0_1 : ScatterDims S100000x40 S1700000x1 S1700000x40)
    = sRows 100000 40 1700000 wfs40 := rfl

/-- The printed row-gather record of the 40-feature layer is the generic one. -/
theorem gather40_eq : (gather_S100000x40_S1700000x1_S1700000x40_1_0_n_n_0_1_140 : GatherDims S100000x40 S1700000x1 S1700000x40)
    = gRows 100000 40 1700000 wfg40 := rfl

/-- The printed dimension numbers of the 40-feature layer's dense transform are the plain matrix product's. -/
theorem dot40_eq : (dot_S100000x128_S128x40_S100000x40_1_0_0_1_n_n : DotDims S100000x128 S128x40 S100000x40) = DotDims.plain 100000 128 40 := rfl

/-- The dense transform of the 40-feature layer, read as the sum over the contracted coordinate. -/
theorem dot40_eq_mm (h : FVec Ideal S100000x128 .f32) (W : FVec Ideal S128x40 .f32) :
    (Host.dotGeneral dot_S100000x128_S128x40_S100000x40_1_0_0_1_n_n none h W : FVec Ideal S100000x40 .f32) = mm h W := by
  rw [dot40_eq]
  funext i
  obtain ⟨a, c, rfl⟩ : ∃ (a : Fin 100000) (c : Fin 40), i = ix2 a c := ⟨i 0, i 1, eq_ix2 i⟩
  exact (dotGeneral_plain_apply none h W a c).trans (mm_apply h W a c).symm

/-- The zero array of the 40-feature layer's sum reads zero everywhere. -/
theorem zeros40_apply (i : S100000x40.Idx) :
    (broadcastInDim S100000x40 ![] bcast_S_S100000x40 (constant (F := Ideal) S_ .f32 0x00000000#32)) i = (0 : EReal) :=
  (scalar_apply ![] bcast_S_S100000x40 _ i).trans Ideal.ofBits_zero_f32

/-- The 40-feature layer of the reference, read at an entry: the normal form of the aggregation of the dense
    transform, plus the bias. -/
theorem layer40_apply (h : FVec Ideal S100000x128 .f32) (W : FVec Ideal S128x40 .f32) (src dst : IVec S1700000 32)
    (dinv : FVec Ideal S100000 .f32) (b : FVec Ideal S40 .f32) (p : Fin 100000) (q : Fin 40) :
    layer40 (F := Ideal) h W src dst (nrmOf (F := Ideal) dinv src dst) b (ix2 p q)
      = agg hN wfs40 (mm h W) dinv (ncol src) (rcol dst) (ix2 p q) + b (ix1 q) := by
  have hbias : broadcastInDim S100000x40 ![0, 1] bcast_S1x40_S100000x40_0_1
      (broadcastInDim S1x40 ![1] bcast_S40_S1x40_1 b) (ix2 p q) = b (ix1 q) :=
    (rowDown_apply ![0, 1] rfl rfl bcast_S1x40_S100000x40_0_1 _ p q).trans
      (row_apply ![1] rfl bcast_S40_S1x40_1 b (0 : Fin 1) q)
  have hU : ∀ (e : Fin 1700000) (f : Fin 40), (mulf (Host.gather (gRows 100000 40 1700000 wfg40) (mm h W) (ncol src))
        (broadcastInDim S1700000x40 ![0, 1] bcast_S1700000x1_S1700000x40_0_1
          (broadcastInDim S1700000x1 ![0] bcast_S1700000_S1700000x1_0 (nrmOf (F := Ideal) dinv src dst)))) (ix2 e f)
      = Host.gather (gRows 100000 40 1700000 wfg40) (mm h W) (ncol src) (ix2 e f) * (nrmOf (F := Ideal) dinv src dst) (ix1 e) := fun e f => by
    rw [mulf_apply, colAcross_apply ![0, 1] rfl rfl bcast_S1700000x1_S1700000x40_0_1 _ e f,
      col_apply ![0] rfl bcast_S1700000_S1700000x1_0 (nrmOf (F := Ideal) dinv src dst) e (0 : Fin 1)]
  unfold layer40
  rw [addf_apply, hbias, scatter40_eq, gather40_eq, scatterAdd_ideal, dot40_eq_mm]
  have hdn : ∀ e : Fin 1700000, 0 ≤ (rcol dst (ix2 e (0 : Fin 1))).toInt →
      (rcol dst (ix2 e (0 : Fin 1))).toInt < ((100000 : Nat) : Int) →
      ncol dst (ix2 e (0 : Fin 1)) = rcol dst (ix2 e (0 : Fin 1)) := fun e h0 _ =>
    ncol_fix dst e (by rw [rcol_apply] at h0; exact h0)
  have hz : ∀ i, (broadcastInDim S100000x40 ![] bcast_S_S100000x40 (constant (F := Ideal) S_ .f32 0x00000000#32)) i = (0 : EReal) := zeros40_apply
  have hnrm := nrmOf_apply dinv src dst
  refine congrArg (· + b (ix1 q)) ?_
  have key := (ref_agg hN wfs40 wfg40 wfv (mm h W) dinv (broadcastInDim S100000x40 ![] bcast_S_S100000x40 (constant (F := Ideal) S_ .f32 0x00000000#32)) hz (ncol src) (rcol dst) (ncol dst)
      hdn
      (nrmOf (F := Ideal) dinv src dst) (nrmOf_apply dinv src dst) (mulf (Host.gather (gRows 100000 40 1700000 wfg40) (mm h W) (ncol src))
        (broadcastInDim S1700000x40 ![0, 1] bcast_S1700000x1_S1700000x40_0_1
          (broadcastInDim S1700000x1 ![0] bcast_S1700000_S1700000x1_0 (nrmOf (F := Ideal) dinv src dst)))) hU p q)
  exact key

/-- relu on the 128-feature array is the maximum with zero, entry by entry. -/
theorem relu128_apply (x : FVec Ideal S100000x128 .f32) (i : S100000x128.Idx) : relu128 (F := Ideal) x i = max (x i) 0 := by
  unfold relu128
  refine (maximumf_apply _ _ _).trans (congrArg (fun t => max (x i) t) ?_)
  exact zeros128_apply i

end Cert.ReferenceIdeal.RBridge

end
-- ==== Proof.Compose.lean ====
/-
  Both programs compute ONE function. With h·W the dense transform, dinv the inverse square-root degrees (non-negative
  reals, whatever the edge list is) and the sum running over the edges e into node n,
      kernel:     dinv[n] · Σ_e ((h·W)[src e] · dinv[src e]) + b
      reference:  Σ_e ((h·W)[src e] · (dinv[src e] · dinv[n])) + b ,
  equal because multiplication by a non-negative real distributes over any finite sum of extended reals, and because an
  edge summed into node n has n itself as its (non-negative, in range) target index. Layer by layer this gives the same
  three-layer composition on both sides, and the two programs' edge lists and degrees are the same functions of the
  shared edge-index argument.
-/
import proofs.«172743_j15590731285080_2_alg».proof.Proof.KValue
import proofs.«172743_j15590731285080_2_alg».proof.Proof.KBridge
import proofs.«172743_j15590731285080_2_alg».proof.Proof.RValue
import proofs.«172743_j15590731285080_2_alg».proof.Proof.RBridge

set_option maxRecDepth 16384

noncomputable section

namespace Cert.Compose

open GcnSpec GcnLayer RowGatherScatter Idealize.ShloMosaic Idealize.ShloMosaic.ValueIdx Idealize.ShloMosaic.TcCoe Idealize.SL.Sem

theorem hN : 0 < 100000 := by decide
theorem wfs128 : ScatterDims.WF ⟨2, ![100000, 128]⟩ ⟨2, ![1700000, 1]⟩ ⟨2, ![1700000, 128]⟩ [1] [0] [0] 1 := by decide
theorem wfs40 : ScatterDims.WF ⟨2, ![100000, 40]⟩ ⟨2, ![1700000, 1]⟩ ⟨2, ![1700000, 40]⟩ [1] [0] [0] 1 := by decide

/-- The three-layer graph convolution on 100000 nodes and 1700000 edges (self loops included). -/
def specOut (dinv : (⟨1, ![100000]⟩ : Shape).Idx → EReal) (sc dc : IVec ⟨2, ![1700000, 1]⟩ 32)
    (x : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 40]⟩ : Shape).Idx → EReal) (b3 : (⟨1, ![40]⟩ : Shape).Idx → EReal) :
    (⟨2, ![100000, 40]⟩ : Shape).Idx → EReal :=
  layer hN wfs40 dinv sc dc
    (relu (layer hN wfs128 dinv sc dc (relu (layer hN wfs128 dinv sc dc x W1 b1)) W2 b2)) W3 b3

/-! ## The kernel program -/

section K
open Cert.KernelIdeal Cert.KernelIdeal.KStages Cert.KernelIdeal.KValue Cert.KernelIdeal.RegionValue

variable (m : (ℓ : Loc Cert.KernelIdeal.nD Cert.KernelIdeal.τ Cert.KernelIdeal.sig) → Buf (Elt Ideal) ℓ) (c : Dev Cert.KernelIdeal.nD)

/-- A region's value is the dense transform with row p scaled by dinv[p]. -/
theorem hR0 (X0 : S100000x128.Idx → EReal) (X1 : S128x128.Idx → EReal) (p : Fin 100000) (q : Fin 128) :
    G0 X0 X1 (dcol m c) (ix2 p q) = mm X0 X1 (ix2 p q) * dinv m c (ix1 p) := by
  rw [G0_apply]
  exact congrArg (fun z => (∑ k : Fin 128, X0 (ix2 p k) * X1 (ix2 k q)) * z) (KBridge.dcol_apply (dinv m c) p)
theorem hR1 (X0 : S100000x128.Idx → EReal) (X1 : S128x128.Idx → EReal) (p : Fin 100000) (q : Fin 128) :
    G1 X0 X1 (dcol m c) (ix2 p q) = mm X0 X1 (ix2 p q) * dinv m c (ix1 p) := by
  rw [G1_apply]
  exact congrArg (fun z => (∑ k : Fin 128, X0 (ix2 p k) * X1 (ix2 k q)) * z) (KBridge.dcol_apply (dinv m c) p)
theorem hR2 (X0 : S100000x128.Idx → EReal) (X1 : S128x40.Idx → EReal) (p : Fin 100000) (q : Fin 40) :
    G2 X0 X1 (dcol m c) (ix2 p q) = mm X0 X1 (ix2 p q) * dinv m c (ix1 p) := by
  rw [G2_apply]
  exact congrArg (fun z => (∑ k : Fin 128, X0 (ix2 p k) * X1 (ix2 k q)) * z) (KBridge.dcol_apply (dinv m c) p)

theorem k_x1 : x1 m c = relu (layer hN wfs128 (dinv m c) (ncol (src m c)) (rcol (dst m c)) (a0 m c) (a2 m c) (a3 m c)) := by
  funext i
  obtain ⟨p, q, rfl⟩ : ∃ (p : Fin 100000) (q : Fin 128), i = ix2 p q := ⟨i 0, i 1, eq_ix2 i⟩
  show relu128 (F := Ideal) (layer128 (G0 (a0 m c) (a2 m c) (dcol m c)) (src m c) (dst m c) (dcol m c) (a3 m c)) (ix2 p q) = _
  rw [KBridge.relu128_apply, KBridge.layer128_apply _ (mm (a0 m c) (a2 m c)) (dinv m c) (src m c) (dst m c) (a3 m c)
    (hR0 m c _ _) (KBridge.dinvOf_real _) p q]
  rfl

theorem k_x2 : x2 m c = relu (layer hN wfs128 (dinv m c) (ncol (src m c)) (rcol (dst m c))
    (relu (layer hN wfs128 (dinv m c) (ncol (src m c)) (rcol (dst m c)) (a0 m c) (a2 m c) (a3 m c))) (a4 m c) (a5 m c)) := by
  funext i
  obtain ⟨p, q, rfl⟩ : ∃ (p : Fin 100000) (q : Fin 128), i = ix2 p q := ⟨i 0, i 1, eq_ix2 i⟩
  show relu128 (F := Ideal) (layer128 (G1 (x1 m c) (a4 m c) (dcol m c)) (src m c) (dst m c) (dcol m c) (a5 m c)) (ix2 p q) = _
  rw [KBridge.relu128_apply, KBridge.layer128_apply _ (mm (x1 m c) (a4 m c)) (dinv m c) (src m c) (dst m c) (a5 m c)
    (hR1 m c _ _) (KBridge.dinvOf_real _) p q, k_x1 m c]
  rfl

/-- The kernel program's result is the three-layer composition. -/
theorem k_out : layer40 (F := Ideal) (G2 (x2 m c) (a6 m c) (dcol m c)) (src m c) (dst m c) (dcol m c) (a7 m c)
    = specOut (dinv m c) (ncol (src m c)) (rcol (dst m c)) (a0 m c) (a2 m c) (a3 m c) (a4 m c) (a5 m c) (a6 m c) (a7 m c) := by
  funext i
  obtain ⟨p, q, rfl⟩ : ∃ (p : Fin 100000) (q : Fin 40), i = ix2 p q := ⟨i 0, i 1, eq_ix2 i⟩
  rw [KBridge.layer40_apply _ (mm (x2 m c) (a6 m c)) (dinv m c) (src m c) (dst m c) (a7 m c)
    (hR2 m c _ _) (KBridge.dinvOf_real _) p q, k_x2 m c]
  rfl

end K

/-! ## The reference program -/

section R
open Cert.ReferenceIdeal Cert.ReferenceIdeal.RStages Cert.ReferenceIdeal.RValue

variable (m : (ℓ : Loc Cert.ReferenceIdeal.nD Cert.ReferenceIdeal.τ Cert.ReferenceIdeal.sig) → Buf (Elt Ideal) ℓ) (c : Dev Cert.ReferenceIdeal.nD)

theorem r_x1 : x1 m c = relu (layer hN wfs128 (dinv m c) (ncol (src m c)) (rcol (dst m c)) (a0 m c) (a2 m c) (a3 m c)) := by
  funext i
  obtain ⟨p, q, rfl⟩ : ∃ (p : Fin 100000) (q : Fin 128), i = ix2 p q := ⟨i 0, i 1, eq_ix2 i⟩
  show relu128 (F := Ideal) (layer128 (a0 m c) (a2 m c) (src m c) (dst m c) (nrmOf (dinv m c) (src m c) (dst m c)) (a3 m c)) (ix2 p q) = _
  rw [RBridge.relu128_apply, RBridge.layer128_apply]
  rfl

theorem r_x2 : x2 m c = relu (layer hN wfs128 (dinv m c) (ncol (src m c)) (rcol (dst m c))
    (relu (layer hN wfs128 (dinv m c) (ncol (src m c)) (rcol (dst m c)) (a0 m c) (a2 m c) (a3 m c))) (a4 m c) (a5 m c)) := by
  funext i
  obtain ⟨p, q, rfl⟩ : ∃ (p : Fin 100000) (q : Fin 128), i = ix2 p q := ⟨i 0, i 1, eq_ix2 i⟩
  show relu128 (F := Ideal) (layer128 (x1 m c) (a4 m c) (src m c) (dst m c) (nrmOf (dinv m c) (src m c) (dst m c)) (a5 m c)) (ix2 p q) = _
  rw [RBridge.relu128_apply, RBridge.layer128_apply, r_x1 m c]
  rfl

/-- The reference program's result is the three-layer composition. -/
theorem r_out : layer40 (F := Ideal) (x2 m c) (a6 m c) (src m c) (dst m c) (nrm m c) (a7 m c)
    = specOut (dinv m c) (ncol (src m c)) (rcol (dst m c)) (a0 m c) (a2 m c) (a3 m c) (a4 m c) (a5 m c) (a6 m c) (a7 m c) := by
  funext i
  obtain ⟨p, q, rfl⟩ : ∃ (p : Fin 100000) (q : Fin 40), i = ix2 p q := ⟨i 0, i 1, eq_ix2 i⟩
  show layer40 (F := Ideal) (x2 m c) (a6 m c) (src m c) (dst m c) (nrmOf (dinv m c) (src m c) (dst m c)) (a7 m c) (ix2 p q) = _
  rw [RBridge.layer40_apply, r_x2 m c]
  rfl

end R

/-! ## From agreeing arguments -/

/-- The two programs' edge lists, degrees and inverse square-root degrees are the same functions of the edge-index
    argument, and the remaining arguments enter the composition as they are. -/
theorem agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    specOut (Cert.ReferenceIdeal.RValue.dinv m' c) (Cert.ReferenceIdeal.RStages.ncol (Cert.ReferenceIdeal.RValue.src m' c))
        (Cert.ReferenceIdeal.RStages.rcol (Cert.ReferenceIdeal.RValue.dst m' c)) (Cert.ReferenceIdeal.RValue.a0 m' c)
        (Cert.ReferenceIdeal.RValue.a2 m' c) (Cert.ReferenceIdeal.RValue.a3 m' c) (Cert.ReferenceIdeal.RValue.a4 m' c)
        (Cert.ReferenceIdeal.RValue.a5 m' c) (Cert.ReferenceIdeal.RValue.a6 m' c) (Cert.ReferenceIdeal.RValue.a7 m' c)
      = specOut (Cert.KernelIdeal.KValue.dinv m c) (Cert.KernelIdeal.KStages.ncol (Cert.KernelIdeal.KValue.src m c))
        (Cert.KernelIdeal.KStages.rcol (Cert.KernelIdeal.KValue.dst m c)) (Cert.KernelIdeal.KValue.a0 m c)
        (Cert.KernelIdeal.KValue.a2 m c) (Cert.KernelIdeal.KValue.a3 m c) (Cert.KernelIdeal.KValue.a4 m c)
        (Cert.KernelIdeal.KValue.a5 m c) (Cert.KernelIdeal.KValue.a6 m c) (Cert.KernelIdeal.KValue.a7 m c) := by
  dsimp only [Cert.ReferenceIdeal.RValue.dinv, Cert.ReferenceIdeal.RValue.src, Cert.ReferenceIdeal.RValue.dst,
    Cert.ReferenceIdeal.RValue.a0, Cert.ReferenceIdeal.RValue.a2, Cert.ReferenceIdeal.RValue.a3, Cert.ReferenceIdeal.RValue.a4,
    Cert.ReferenceIdeal.RValue.a5, Cert.ReferenceIdeal.RValue.a6, Cert.ReferenceIdeal.RValue.a7]
  rw [e0, e1, e2, e3, e4, e5, e6, e7]
  rfl

end Cert.Compose

end
-- ==== Proof.lean ====
/-
  A three-layer graph convolution (100000 nodes, 1600000 edges plus one self loop per node; features 128 → 128 → 128 → 40)
  computed two ways. The kernel program folds the symmetric normalisation D^(-1/2) (A + I) D^(-1/2) into two node-level
  scalings: each pallas_call computes (h·W) with row n scaled by dinv[n], the host gathers those rows at the edges'
  sources, sums them into the edges' targets and scales node n's sum by dinv[n] again. The reference scales every
  gathered row of h·W by the per-edge factor dinv[src]·dinv[dst] before summing. At the extended reals the two agree:
  dinv[n] is a non-negative REAL for every degree (the reciprocal square root of a positive extended real, or zero), and
  multiplication by a non-negative real distributes over any finite sum of extended reals; an edge summed into node n has
  n as its target index, so the reference's dinv[dst] is dinv[n]. No finiteness of the inputs is used.

  The three frames: the two kernel programs' are the generated frame certificates; the reference's is its run with the
  result dropped. The idealization rewrote nothing, so `preserves` is trivial. `algebraic`: the kernel program's run ends
  with its result at the last segment boundary's contents, read back through the three regions (each region's output array
  is one whole-array function of the arrays it finds) and the host stretches; the reference's run ends at its operations'
  fold; both are the three-layer composition `Cert.Compose.specOut` of the shared arguments.
-/
import proofs.«172743_j15590731285080_2_alg».proof.Defs
import proofs.«172743_j15590731285080_2_alg».proof.Proof.Gen.Kernel
import proofs.«172743_j15590731285080_2_alg».proof.Proof.Gen.Kernel.Skeleton
import proofs.«172743_j15590731285080_2_alg».proof.Proof.Gen.Kernel.Launch
import proofs.«172743_j15590731285080_2_alg».proof.Proof.Gen.Kernel.Points
import proofs.«172743_j15590731285080_2_alg».proof.Proof.Gen.Kernel.Frame
import proofs.«172743_j15590731285080_2_alg».proof.Proof.Gen.KernelIdeal
import proofs.«172743_j15590731285080_2_alg».proof.Proof.Gen.KernelIdeal.Skeleton
import proofs.«172743_j15590731285080_2_alg».proof.Proof.Gen.KernelIdeal.Launch
import proofs.«172743_j15590731285080_2_alg».proof.Proof.Gen.KernelIdeal.Points
import proofs.«172743_j15590731285080_2_alg».proof.Proof.Gen.KernelIdeal.Frame
import proofs.«172743_j15590731285080_2_alg».proof.Proof.Gen.ReferenceIdeal
import proofs.«172743_j15590731285080_2_alg».proof.Proof.Gen.Pre_finite_inputs
import proofs.«172743_j15590731285080_2_alg».proof.Proof.KernelRun
import proofs.«172743_j15590731285080_2_alg».proof.Proof.RefRun
import proofs.«172743_j15590731285080_2_alg».proof.Proof.Compose
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, the result dropped: no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RValue.out_arg0 m c),
     (h c Cert.ReferenceIdeal.main_arg1).trans (Cert.ReferenceIdeal.RValue.out_arg1 m c),
     (h c Cert.ReferenceIdeal.main_arg2).trans (Cert.ReferenceIdeal.RValue.out_arg2 m c),
     (h c Cert.ReferenceIdeal.main_arg3).trans (Cert.ReferenceIdeal.RValue.out_arg3 m c),
     (h c Cert.ReferenceIdeal.main_arg4).trans (Cert.ReferenceIdeal.RValue.out_arg4 m c),
     (h c Cert.ReferenceIdeal.main_arg5).trans (Cert.ReferenceIdeal.RValue.out_arg5 m c),
     (h c Cert.ReferenceIdeal.main_arg6).trans (Cert.ReferenceIdeal.RValue.out_arg6 m c),
     (h c Cert.ReferenceIdeal.main_arg7).trans (Cert.ReferenceIdeal.RValue.out_arg7 m c)⟩)
    (Cert.ReferenceIdeal.RunP.run (F := Ideal) m ρ)

theorem preserves : Cert.preserves_Kernel_KernelIdeal := trivial

/-- Both runs end with the three-layer composition of the shared arguments in their result buffers. -/
theorem algebraic : Cert.algebraic_KernelIdeal_ReferenceIdeal := by
  intro m ρ m' ρ' _ hagree
  refine ⟨fun c => Cert.Compose.specOut (Cert.KernelIdeal.KValue.dinv m c)
      (Cert.KernelIdeal.KStages.ncol (Cert.KernelIdeal.KValue.src m c)) (Cert.KernelIdeal.KStages.rcol (Cert.KernelIdeal.KValue.dst m c))
      (Cert.KernelIdeal.KValue.a0 m c) (Cert.KernelIdeal.KValue.a2 m c) (Cert.KernelIdeal.KValue.a3 m c)
      (Cert.KernelIdeal.KValue.a4 m c) (Cert.KernelIdeal.KValue.a5 m c) (Cert.KernelIdeal.KValue.a6 m c)
      (Cert.KernelIdeal.KValue.a7 m c), ?_, ?_⟩
  · exact (θ_run Cert.KernelIdeal.defs _ _).mono (fun r h c =>
      ⟨(h c).1.trans ((Cert.KernelIdeal.KValue.W11_v65 m ρ c).trans (Cert.Compose.k_out m c)), (h c).2⟩)
      (Cert.KernelIdeal.KRun.run_named m ρ)
  · exact (θ_run Cert.ReferenceIdeal.defs _ _).mono (fun r h c =>
      ⟨(h c Cert.ReferenceIdeal.main_v82).trans ((Cert.ReferenceIdeal.RValue.out_v82 m' c).trans
        ((Cert.Compose.r_out m' c).trans (Cert.Compose.agree m m' c (hagree c).1 (hagree c).2.1 (hagree c).2.2.1
          (hagree c).2.2.2.1 (hagree c).2.2.2.2.1 (hagree c).2.2.2.2.2.1 (hagree c).2.2.2.2.2.2.1 (hagree c).2.2.2.2.2.2.2))),
       (h c Cert.ReferenceIdeal.main_arg0).trans (Cert.ReferenceIdeal.RValue.out_arg0 m' c),
       (h c Cert.ReferenceIdeal.main_arg1).trans (Cert.ReferenceIdeal.RValue.out_arg1 m' c),
       (h c Cert.ReferenceIdeal.main_arg2).trans (Cert.ReferenceIdeal.RValue.out_arg2 m' c),
       (h c Cert.ReferenceIdeal.main_arg3).trans (Cert.ReferenceIdeal.RValue.out_arg3 m' c),
       (h c Cert.ReferenceIdeal.main_arg4).trans (Cert.ReferenceIdeal.RValue.out_arg4 m' c),
       (h c Cert.ReferenceIdeal.main_arg5).trans (Cert.ReferenceIdeal.RValue.out_arg5 m' c),
       (h c Cert.ReferenceIdeal.main_arg6).trans (Cert.ReferenceIdeal.RValue.out_arg6 m' c),
       (h c Cert.ReferenceIdeal.main_arg7).trans (Cert.ReferenceIdeal.RValue.out_arg7 m' c)⟩)
      (Cert.ReferenceIdeal.RunP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
